-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x2 : Shape := ⟨2, ![20000, 2]⟩
abbrev S_ : Shape := ⟨0, ![]⟩

class Facts : Prop where
  bcast_S_S20000x2 : S_.BroadcastsInDim S20000x2 (![] : Fin 0 → Fin S20000x2.rank)
  reducesTo_S20000x2_S_d0_1 : S20000x2.ReducesTo [0, 1] S_
  h_S_ : 0 < S_.numel

variable [Facts]

def fn {F : FTy → Type} [FloatOps F] (main_arg0 : FVec F S20000x2 .f32) : IVec S_ 1 :=
  let main_v0 : FVec F S20000x2 .f32 := Host.absf main_arg0
  let main_cst : FVec F S_ .f32 := constant S_ .f32 0x7F800000#32
  let main_v1 : FVec F S20000x2 .f32 := broadcastInDim S20000x2 ![] bcast_S_S20000x2 main_cst
  let main_v2 : IVec S20000x2 1 := cmpf .olt main_v0 main_v1
  let main_c : IVec S_ 1 := constantI S_ 1 1#1
  let main_v3 : IVec S_ 1 := (fun x v => Host.reduce IntOp.andi x v reducesTo_S20000x2_S_d0_1 h_S_) main_v2 main_c
  main_v3
-- ==== Kernel.lean ====
abbrev S20000x2 : Shape := ⟨2, ![20000, 2]⟩
abbrev S20000x1 : Shape := ⟨2, ![20000, 1]⟩
abbrev S20000 : Shape := ⟨1, ![20000]⟩
abbrev S_ : Shape := ⟨0, ![]⟩
abbrev S4096x4096 : Shape := ⟨2, ![4096, 4096]⟩
abbrev S256x4096 : Shape := ⟨2, ![256, 4096]⟩
abbrev S8x4096 : Shape := ⟨2, ![8, 4096]⟩
abbrev S1x4096 : Shape := ⟨2, ![1, 4096]⟩
abbrev S1x1x4096x4096 : Shape := ⟨4, ![1, 1, 4096, 4096]⟩

abbrev nBuf : Space → Nat
  | .hbm => 37
  | .vmem => 8
  | .smem => 0
  | _ => 0

abbrev bufTy : (tb : Table) → Fin (tcTables nBuf tb) → BufTy
  | .hbm, ⟨0, _⟩ => ⟨S20000x2, .f32⟩
  | .hbm, ⟨1, _⟩ => ⟨S20000x1, .f32⟩
  | .hbm, ⟨2, _⟩ => ⟨S20000, .f32⟩
  | .hbm, ⟨3, _⟩ => ⟨S_, .f32⟩
  | .hbm, ⟨4, _⟩ => ⟨S20000, .f32⟩
  | .hbm, ⟨5, _⟩ => ⟨S20000, .f32⟩
  | .hbm, ⟨6, _⟩ => ⟨S20000, .i32⟩
  | .hbm, ⟨7, _⟩ => ⟨S20000x1, .f32⟩
  | .hbm, ⟨8, _⟩ => ⟨S20000, .f32⟩
  | .hbm, ⟨9, _⟩ => ⟨S_, .f32⟩
  | .hbm, ⟨10, _⟩ => ⟨S20000, .f32⟩
  | .hbm, ⟨11, _⟩ => ⟨S20000, .f32⟩
  | .hbm, ⟨12, _⟩ => ⟨S20000, .i32⟩
  | .hbm, ⟨13, _⟩ => ⟨S_, .f32⟩
  | .hbm, ⟨14, _⟩ => ⟨S4096x4096, .f32⟩
  | .hbm, ⟨15, _⟩ => ⟨S_, .i32⟩
  | .hbm, ⟨16, _⟩ => ⟨S20000, .i32⟩
  | .hbm, ⟨17, _⟩ => ⟨S20000, .i1⟩
  | .hbm, ⟨18, _⟩ => ⟨S_, .i32⟩
  | .hbm, ⟨19, _⟩ => ⟨S20000, .i32⟩
  | .hbm, ⟨20, _⟩ => ⟨S20000, .i32⟩
  | .hbm, ⟨21, _⟩ => ⟨S20000, .i32⟩
  | .hbm, ⟨22, _⟩ => ⟨S_, .i32⟩
  | .hbm, ⟨23, _⟩ => ⟨S20000, .i32⟩
  | .hbm, ⟨24, _⟩ => ⟨S20000, .i1⟩
  | .hbm, ⟨25, _⟩ => ⟨S_, .i32⟩
  | .hbm, ⟨26, _⟩ => ⟨S20000, .i32⟩
  | .hbm, ⟨27, _⟩ => ⟨S20000, .i32⟩
  | .hbm, ⟨28, _⟩ => ⟨S20000, .i32⟩
  | .hbm, ⟨29, _⟩ => ⟨S20000x1, .i32⟩
  | .hbm, ⟨30, _⟩ => ⟨S20000x1, .i32⟩
  | .hbm, ⟨31, _⟩ => ⟨S20000x2, .i32⟩
  | .hbm, ⟨32, _⟩ => ⟨S_, .f32⟩
  | .hbm, ⟨33, _⟩ => ⟨S20000, .f32⟩
  | .hbm, ⟨34, _⟩ => ⟨S4096x4096, .f32⟩
  | .hbm, ⟨35, _⟩ => ⟨S4096x4096, .f32⟩
  | .hbm, ⟨36, _⟩ => ⟨S1x1x4096x4096, .f32⟩
  | .local _ .vmem, ⟨0, _⟩ => ⟨S256x4096, .f32⟩
  | .local _ .vmem, ⟨1, _⟩ => ⟨S256x4096, .f32⟩
  | .local _ .vmem, ⟨2, _⟩ => ⟨S8x4096, .f32⟩
  | .local _ .vmem, ⟨3, _⟩ => ⟨S8x4096, .f32⟩
  | .local _ .vmem, ⟨4, _⟩ => ⟨S8x4096, .f32⟩
  | .local _ .vmem, ⟨5, _⟩ => ⟨S8x4096, .f32⟩
  | .local _ .vmem, ⟨6, _⟩ => ⟨S256x4096, .f32⟩
  | .local _ .vmem, ⟨7, _⟩ => ⟨S256x4096, .f32⟩
  | _, _ => ⟨S20000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_3 : Ref sig .tc := ⟨.hbm, 22, rfl⟩
abbrev main_v16 : Ref sig .tc := ⟨.hbm, 23, rfl⟩
abbrev main_v17 : Ref sig .tc := ⟨.hbm, 24, rfl⟩
abbrev main_c_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S20000x2_S20000x1_0_0 : S20000x2.Slices ![0, 0] S20000x1
  shapeCasts_S20000x1_S20000 : S20000x1.ShapeCasts S20000
  bcast_S_S20000 : S_.BroadcastsInDim S20000 (![] : Fin 0 → Fin S20000.rank)
  slices_S20000x2_S20000x1_0_1 : S20000x2.Slices ![0, 1] S20000x1
  bcast_S_S4096x4096 : S_.BroadcastsInDim S4096x4096 (![] : Fin 0 → Fin S4096x4096.rank)
  bcast_S20000_S20000x1_0 : S20000.BroadcastsInDim S20000x1 (![0] : Fin 1 → Fin S20000x1.rank)
  concatenates_S20000x1_S20000x1_S20000x2_d1 : Shape.Concatenates [S20000x1, S20000x1] S20000x2 1
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  iota_S256x4096_d1_w32 : S256x4096.Iotas .tc 32 [1]
  rotates_S256x4096_d1 : S256x4096.Rotates 1 none
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  iota_S8x4096_d1_w32 : S8x4096.Iotas .tc 32 [1]
  rotates_S8x4096_d1 : S8x4096.Rotates 1 none
  slices_S8x4096_o7_0_S1x4096 : S8x4096.Slices ![7, 0] S1x4096
  slices_S8x4096_o0_0_S1x4096 : S8x4096.Slices ![0, 0] S1x4096
  iota_S256x4096_d0_w32 : S256x4096.Iotas .tc 32 [0]
  rotates_S256x4096_d0 : S256x4096.Rotates 0 none
  shapeCasts_S1x4096_S1x4096 : S1x4096.ShapeCasts S1x4096
  broadcasts_S1x4096_S256x4096 : S1x4096.Broadcasts S256x4096
  bcast_S4096x4096_S1x1x4096x4096_2_3 : S4096x4096.BroadcastsInDim S1x1x4096x4096 (![2, 3] : Fin 2 → Fin S1x1x4096x4096.rank)
  scatter_S4096x4096_S20000x2_S20000_n_01_01_1_wf : ScatterDims.WF S4096x4096 S20000x2 S20000 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S4096x4096.size a
  hwx0_1 : ∀ i : grid0.Coords, EltTy.bits .f32 = 32 ∨ (Rect.block (s := S4096x4096) S8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S4096x4096.size a
  hwx0_2 : ∀ i : grid0.Coords, EltTy.bits .f32 = 32 ∨ (Rect.block (s := S4096x4096) S8x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)

variable [Facts₀]

def scatter_S4096x4096_S20000x2_S20000_n_01_01_1 : ScatterDims S4096x4096 S20000x2 S20000 where
  updateWindowDims := []
  insertedWindowDims := [0, 1]
  scatterDimsToOperandDims := [0, 1]
  indexVectorDim := 1
  wf := scatter_S4096x4096_S20000x2_S20000_n_01_01_1_wf

abbrev win0_0 : Pipeline.Window sig grid0 :=
  Pipeline.Window.ofSpec (Memref.whole main_v25) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S8x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S8x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S20000x2 : Shape := ⟨2, ![20000, 2]⟩
abbrev S20000x1 : Shape := ⟨2, ![20000, 1]⟩
abbrev S20000 : Shape := ⟨1, ![20000]⟩
abbrev S_ : Shape := ⟨0, ![]⟩
abbrev S1x1x4096x4096 : Shape := ⟨4, ![1, 1, 4096, 4096]⟩
abbrev S20000x4 : Shape := ⟨2, ![20000, 4]⟩

abbrev nBuf : Space → Nat
  | .hbm => 46
  | .vmem => 0
  | .smem => 0
  | _ => 0

abbrev bufTy : (tb : Table) → Fin (tcTables nBuf tb) → BufTy
  | .hbm, ⟨0, _⟩ => ⟨S20000x2, .f32⟩
  | .hbm, ⟨1, _⟩ => ⟨S20000x1, .f32⟩
  | .hbm, ⟨2, _⟩ => ⟨S20000, .f32⟩
  | .hbm, ⟨3, _⟩ => ⟨S_, .f32⟩
  | .hbm, ⟨4, _⟩ => ⟨S20000, .f32⟩
  | .hbm, ⟨5, _⟩ => ⟨S20000, .f32⟩
  | .hbm, ⟨6, _⟩ => ⟨S20000, .i32⟩
  | .hbm, ⟨7, _⟩ => ⟨S20000x1, .f32⟩
  | .hbm, ⟨8, _⟩ => ⟨S20000, .f32⟩
  | .hbm, ⟨9, _⟩ => ⟨S_, .f32⟩
  | .hbm, ⟨10, _⟩ => ⟨S20000, .f32⟩
  | .hbm, ⟨11, _⟩ => ⟨S20000, .f32⟩
  | .hbm, ⟨12, _⟩ => ⟨S20000, .i32⟩
  | .hbm, ⟨13, _⟩ => ⟨S_, .f32⟩
  | .hbm, ⟨14, _⟩ => ⟨S1x1x4096x4096, .f32⟩
  | .hbm, ⟨15, _⟩ => ⟨S_, .i32⟩
  | .hbm, ⟨16, _⟩ => ⟨S20000, .i32⟩
  | .hbm, ⟨17, _⟩ => ⟨S20000, .i1⟩
  | .hbm, ⟨18, _⟩ => ⟨S_, .i32⟩
  | .hbm, ⟨19, _⟩ => ⟨S20000, .i32⟩
  | .hbm, ⟨20, _⟩ => ⟨S20000, .i32⟩
  | .hbm, ⟨21, _⟩ => ⟨S20000, .i32⟩
  | .hbm, ⟨22, _⟩ => ⟨S_, .i32⟩
  | .hbm, ⟨23, _⟩ => ⟨S20000, .i32⟩
  | .hbm, ⟨24, _⟩ => ⟨S20000, .i1⟩
  | .hbm, ⟨25, _⟩ => ⟨S_, .i32⟩
  | .hbm, ⟨26, _⟩ => ⟨S20000, .i32⟩
  | .hbm, ⟨27, _⟩ => ⟨S20000, .i32⟩
  | .hbm, ⟨28, _⟩ => ⟨S20000, .i32⟩
  | .hbm, ⟨29, _⟩ => ⟨S_, .i32⟩
  | .hbm, ⟨30, _⟩ => ⟨S20000, .i32⟩
  | .hbm, ⟨31, _⟩ => ⟨S_, .i32⟩
  | .hbm, ⟨32, _⟩ => ⟨S20000, .i32⟩
  | .hbm, ⟨33, _⟩ => ⟨S20000, .i32⟩
  | .hbm, ⟨34, _⟩ => ⟨S20000, .i32⟩
  | .hbm, ⟨35, _⟩ => ⟨S20000x1, .i32⟩
  | .hbm, ⟨36, _⟩ => ⟨S20000x1, .i32⟩
  | .hbm, ⟨37, _⟩ => ⟨S20000x1, .i32⟩
  | .hbm, ⟨38, _⟩ => ⟨S20000x1, .i32⟩
  | .hbm, ⟨39, _⟩ => ⟨S20000x4, .i32⟩
  | .hbm, ⟨40, _⟩ => ⟨S_, .f32⟩
  | .hbm, ⟨41, _⟩ => ⟨S20000, .f32⟩
  | .hbm, ⟨42, _⟩ => ⟨S1x1x4096x4096, .f32⟩
  | .hbm, ⟨43, _⟩ => ⟨S_, .f32⟩
  | .hbm, ⟨44, _⟩ => ⟨S_, .f32⟩
  | .hbm, ⟨45, _⟩ => ⟨S1x1x4096x4096, .f32⟩
  | _, _ => ⟨S20000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_3 : Ref sig .tc := ⟨.hbm, 22, rfl⟩
abbrev main_v16 : Ref sig .tc := ⟨.hbm, 23, rfl⟩
abbrev main_v17 : Ref sig .tc := ⟨.hbm, 24, rfl⟩
abbrev main_c_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_5 : Ref sig .tc := ⟨.hbm, 29, rfl⟩
abbrev main_v21 : Ref sig .tc := ⟨.hbm, 30, rfl⟩
abbrev main_c_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  slices_S20000x2_S20000x1_0_0 : S20000x2.Slices ![0, 0] S20000x1
  shapeCasts_S20000x1_S20000 : S20000x1.ShapeCasts S20000
  bcast_S_S20000 : S_.BroadcastsInDim S20000 (![] : Fin 0 → Fin S20000.rank)
  slices_S20000x2_S20000x1_0_1 : S20000x2.Slices ![0, 1] S20000x1
  bcast_S_S1x1x4096x4096 : S_.BroadcastsInDim S1x1x4096x4096 (![] : Fin 0 → Fin S1x1x4096x4096.rank)
  bcast_S20000_S20000x1_0 : S20000.BroadcastsInDim S20000x1 (![0] : Fin 1 → Fin S20000x1.rank)
  concatenates_S20000x1_S20000x1_S20000x1_S20000x1_S20000x4_d1 : Shape.Concatenates [S20000x1, S20000x1, S20000x1, S20000x1] S20000x4 1
  bcast_S_S_ : S_.BroadcastsInDim S_ (![] : Fin 0 → Fin S_.rank)
  reduceWindows_S1x1x4096x4096_S1x1x4096x4096_w1s1p0_0_w1s1p0_0_w3s1p1_1_w3s1p1_1 : S1x1x4096x4096.ReduceWindows (![1, 1, 3, 3] : Fin 4 → Nat) ![1, 1, 1, 1] ![0, 0, 1, 1] ![0, 0, 1, 1] S1x1x4096x4096
  h_S_ : 0 < S_.numel
  scatter_S1x1x4096x4096_S20000x4_S20000_n_0123_0123_1_wf : ScatterDims.WF S1x1x4096x4096 S20000x4 S20000 [] [0, 1, 2, 3] [0, 1, 2, 3] 1

variable [Facts₀]

def scatter_S1x1x4096x4096_S20000x4_S20000_n_0123_0123_1 : ScatterDims S1x1x4096x4096 S20000x4 S20000 where
  updateWindowDims := []
  insertedWindowDims := [0, 1, 2, 3]
  scatterDimsToOperandDims := [0, 1, 2, 3]
  indexVectorDim := 1
  wf := scatter_S1x1x4096x4096_S20000x4_S20000_n_0123_0123_1_wf

class Facts : Prop extends Facts₀ where

variable [Facts]
-- ==== Proof.BodyB.lean ====
/-
  One grid point of the pooling kernel, as a statement about memory: run on four whole staging buffers — the tile, the
  strip above, the strip below (each holding given contents) and the output tile (holding anything) — the body ends
  with the three inputs as they were and the output holding `tileOut`: the body's one store, which covers the whole
  output tile, of the value computed from the three loaded blocks and the grid coordinate. The body also loads the
  output tile before storing into it; that value is not used.
-/
import proofs.«124252_j31808527794313_2_alg».proof.Proof.Gen.Kernel.Launch
import proofs.«124252_j31808527794313_2_alg».proof.Proof.Gen.Kernel.Skeleton
import proofs.«124252_j31808527794313_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole tile and the whole strip, as the rectangles the body loads and stores through. -/
abbrev rTile : Rect S256x4096 := Rect.unit (s := S256x4096) ![0, 0] S256x4096.size inb_S256x4096_S256x4096_0_0
abbrev rStrip : Rect S8x4096 := Rect.unit (s := S8x4096) ![0, 0] S8x4096.size inb_S8x4096_S8x4096_0_0

/-- "This is the first tile" and "this is the last tile", as the body computes them from the grid coordinate. -/
abbrev isFirst (i : grid0.Coords) : BitVec 1 := Scalar.cmpi .eq (BitVec.ofNat 32 (i 0).val) 0#32
abbrev isLast (i : grid0.Coords) : BitVec 1 := Scalar.cmpi .eq (BitVec.ofNat 32 (i 0).val) 15#32

/-- What the output tile holds after the body: its one store, of the pooled value of the three loaded blocks. -/
def tileOut (i : grid0.Coords) (x0 : Vec F S256x4096 .f32) (x1 x2 : Vec F S8x4096 .f32) : Vec F S256x4096 .f32 :=
  View.canon [⟨rTile, k0_pay1 (isFirst i) (isLast i) (k0_pay2 (View.ld x0 rTile)) (k0_pay3 (View.ld x1 rStrip)) (k0_pay4 (View.ld x2 rStrip))
    (iota .tc S8x4096 32 [1] iota_S8x4096_d1_w32) (k0_pay5 (View.ld x2 rStrip)) k0_pay6⟩]

/-- The store covers the output tile. -/
theorem cover_tile (p0 : Vec F S256x4096 .f32) (y : S256x4096.Idx) :
    ∃ pc ∈ ([⟨rTile, p0⟩] : List (View.Piece (Elt F) S256x4096 .f32)), y ∈ pc.1.set :=
  View.cover_of_tiled [⟨rTile, p0⟩] S256x4096.size (by rfl) y

set_option maxHeartbeats 1000000 in
/-- The body's triple. -/
theorem sound_kernel (c : Dev nD) (E : Set ℕ) (i : grid0.Coords)
    (arg1 : Memref sig .tc .vmem S256x4096 .f32) (harg1 : arg1.IsWhole) (arg2 : Memref sig .tc .vmem S8x4096 .f32) (harg2 : arg2.IsWhole)
    (arg3 : Memref sig .tc .vmem S8x4096 .f32) (harg3 : arg3.IsWhole) (arg4 : Memref sig .tc .vmem S256x4096 .f32) (harg4 : arg4.IsWhole)
    (x0 : Vec F S256x4096 .f32) (x1 x2 : Vec F S8x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (tileOut i x0 x1 x2)) -∗ K ⟨⟩))
      ⊢ wp frame (wpE (defs₀ (F := F)) Variants.none c none) E (cc0__pool3x3_kernel i arg1 harg1 arg2 harg2 arg3 harg3 arg4 harg4) K := by
  simp only [cc0__pool3x3_kernel_eq_skeleton]; unfold cc0__pool3x3_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover_tile _)

end Cert.Kernel.Hand

end
-- ==== Proof.DataB.lean ====
/-
  The proof data of the pooling region and its body obligation.

  When the region is entered the image is what the host operations before it have built (`V`). Three input windows
  read that ONE image: the tile of 256 rows at the grid point, the 8-row strip that ends just above the tile and the
  8-row strip that begins just below it. Each input's staging buffer holds its block of the image at every point, and
  the body leaves it there; the output's staging buffer holds, after the body, the pooled tile computed from the three
  blocks (`tileOut`). Since the three input windows stand on one array, its full share is dealt among them: a half
  for the tile and a quarter for each strip. Nothing is owed between points and the invariant is the untouched rest.
-/
import proofs.«124252_j31808527794313_2_alg».proof.Proof.BodyB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch, as the host operations' valuation; -/
abbrev V₀ (c : Dev nD) : Valuation τ sig (Elt F) := fun b => m ((c : Dev nD), b)
/-- and when the region is entered: the host operations before it have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tileOut (grid0.coords t) (iblk m c 0 t) (iblk m c 1 t) (iblk m c 2 t)
  Φ _ := Pipeline.ΦA spec0 c
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = tileOut (grid0.coords t) (iblk m c 0 t) (iblk m c 1 t) (iblk m c 2 t) := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.RunB.lean ====
/-
  The run of the whole program: host operations, the pooling region, one more host operation.

  The program is read as three segments. Between segments a core holds every buffer that is not a kernel scratch, whole,
  at a known valuation: at launch the memory's; after the first stretch of host operations their result; after the
  region the same with the output array replaced by what the region wrote; after the last stretch that stretch's
  result. At the region's entry the image's buffer, which three input windows read, is dealt among them — a half of
  the full share to the tile's window, a quarter to each strip's — and at the exit the three parts, whose contents are
  still the image, are joined again. The final memory is then read off the last valuation at every such buffer.
-/
import proofs.«124252_j31808527794313_2_alg».proof.Proof.DataB
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers a core holds between segments -/

/-- The TensorCore's references that are no kernel scratch, as device buffers. -/
def hostRefs : Finset (DevRef τ sig) := (StableHlo.tcRefs τ sig).filter fun b => ¬ b.isScoped

omit [FloatOps F] in
/-- Those buffers held at a valuation are the launch's unscoped buffers at it. -/
theorem held_hostRefs (c : Dev nD) (W : Valuation τ sig (Elt F)) :
    (StableHlo.held (c : Thread nD τ) hostRefs W : sProp 𝕄) = unscopedBufs c (fun b => W b) := by
  unfold unscopedBufs StableHlo.held hostRefs StableHlo.tcRefs
  rw [Finset.filter_map, bigSep_map]
  rfl

omit [FloatOps F] in
/-- A host operation on TensorCore references touches only such buffers. -/
theorem sub_hostRefs (op : HloOp τ sig (Elt F)) (h : op.bufs ⊆ StableHlo.tcRefs τ sig) : op.bufs ⊆ hostRefs := fun b hb =>
  Finset.mem_filter.mpr ⟨h hb, fun h' => Bool.false_ne_true ((op.no_scoped b hb).symm.trans h')⟩

/-! ## The image's share, dealt and joined -/

/-- The windows stand on two arrays: the image and the result. -/
theorem arrRefs_eq : (Finset.univ.image (Pipeline.arrRef spec0) : Finset (Ref sig .tc)) = {main_v25, main_v26} := by
  decide

theorem share0 (c : Dev nD) : (dats m 0 c).share 0 = fullShare.left := rfl
theorem share1 (c : Dev nD) : (dats m 0 c).share 1 = fullShare.right.left := rfl
theorem share2 (c : Dev nD) : (dats m 0 c).share 2 = fullShare.right.right := rfl
theorem share3 (c : Dev nD) : (dats m 0 c).share 3 = fullShare := rfl

/-- The arrays as the pipeline holds them, at contents `G w`, window by window. -/
theorem arrays_chain (c : Dev nD) (G : (w : Fin cfg0.W) → Buf (Elt F) ((cfg0.win w).arr.view.loc (c.tc : Thread nD τ))) :
    ((dats m 0 c).arrays G : sProp 𝕄)
      = iprop((((c.tc : Thread nD τ).loc main_v25) ↦{fullShare.left} G 0) ∗ (((c.tc : Thread nD τ).loc main_v25) ↦{fullShare.right.left} G 1)
          ∗ (((c.tc : Thread nD τ).loc main_v25) ↦{fullShare.right.right} G 2) ∗ (((c.tc : Thread nD τ).loc main_v26) ↦{fullShare} G 3)) := by
  unfold Dat.arrays
  rw [bigSep_W0, (arr_whole0 0).set_eq_univ, (arr_whole0 3).set_eq_univ, share0, share1, share2, share3]

/-- The two buffers behind the arrays, whole, at contents `W`. -/
theorem arrBufs_pair (c : Dev nD) (W : (b : Ref sig .tc) → Buf (Elt F) ((c.tc : Thread nD τ).loc b)) :
    (Pipeline.arrBufs spec0 c W : sProp 𝕄)
      = iprop((((c.tc : Thread nD τ).loc main_v25) ↦{fullShare} W main_v25) ∗ (((c.tc : Thread nD τ).loc main_v26) ↦{fullShare} W main_v26)) := by
  unfold Pipeline.arrBufs
  rw [arrRefs_eq, bigSep_insert (by decide), bigSep_singleton]
  rfl

/-- ENTRY: the image's buffer dealt among its three windows. -/
theorem deal (c : Dev nD) (W : (b : Ref sig .tc) → Buf (Elt F) ((c.tc : Thread nD τ).loc b))
    (G : (w : Fin cfg0.W) → Buf (Elt F) ((cfg0.win w).arr.view.loc (c.tc : Thread nD τ)))
    (h0 : G 0 = W main_v25) (h1 : G 1 = W main_v25) (h2 : G 2 = W main_v25) (h3 : G 3 = W main_v26) :
    (Pipeline.arrBufs spec0 c W : sProp 𝕄) ⊢ (dats m 0 c).arrays G := by
  rw [arrBufs_pair, arrays_chain, h0, h1, h2, h3]
  iintro ⟨H25, H26⟩
  ihave H := (pointsTo_share (PosShare.mem_left_op_right fullShare)).1 $$ H25
  icases H with ⟨Hl, Hr⟩
  ihave H' := (pointsTo_share (PosShare.mem_left_op_right fullShare.right)).1 $$ Hr
  icases H' with ⟨Hrl, Hrr⟩
  isplitl [Hl]; · iexact Hl
  isplitl [Hrl]; · iexact Hrl
  isplitl [Hrr]; · iexact Hrr
  iexact H26

/-- EXIT: the three parts joined again. -/
theorem join (c : Dev nD) (W : (b : Ref sig .tc) → Buf (Elt F) ((c.tc : Thread nD τ).loc b))
    (G : (w : Fin cfg0.W) → Buf (Elt F) ((cfg0.win w).arr.view.loc (c.tc : Thread nD τ)))
    (h0 : G 0 = W main_v25) (h1 : G 1 = W main_v25) (h2 : G 2 = W main_v25) (h3 : G 3 = W main_v26) :
    ((dats m 0 c).arrays G : sProp 𝕄) ⊢ Pipeline.arrBufs spec0 c W := by
  rw [arrBufs_pair, arrays_chain, h0, h1, h2, h3]
  iintro ⟨Hl, Hrl, Hrr, H26⟩
  isplitr [H26]; swap; · iexact H26
  iapply (pointsTo_share (PosShare.mem_left_op_right fullShare)).2
  isplitl [Hl]; · iexact Hl
  iapply (pointsTo_share (PosShare.mem_left_op_right fullShare.right)).2
  isplitl [Hrl]; · iexact Hrl
  iexact Hrr

/-! ## The segments -/

/-- No kernel variant, no level assigned (no core owes another anything), no prefetched table. -/
abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- The pipeline library's algebra is the whole of the certificate's. -/
abbrev EP : Emb (UR sig nD τ) (MT nD τ sig Unit (Elt F) ℕ (UR sig nD τ) ℕ) := emb₁

/-- What rides beside the buffers: the generator register at some state, and what the core owes — nothing. -/
abbrev R (c : Dev nD) : sProp 𝕄 :=
  iprop((∃ r, prngReg c r) ∗ ∃ W, owes (c : Thread nD τ) (0 : CellTallies nD τ sig Unit) W)

/-- The valuation when the region is entered: the first stretch of host operations has run; -/
abbrev V₁ (c : Dev nD) : Valuation τ sig (Elt F) := StableHlo.after hostOps0 (V₀ m c)
open Classical in
/-- when it is left: the result array at what the region wrote; -/
def V₂ (c : Dev nD) : Valuation τ sig (Elt F) :=
  Function.update (V₁ m c) (Proc.devRef .tc main_v26) ((dats m 0 c).arrAt 3 cfg0.N)
/-- and at the end. -/
abbrev V₃ (c : Dev nD) : Valuation τ sig (Elt F) := StableHlo.after hostOps1 (V₂ m c)

theorem V₂_result (c : Dev nD) : V₂ m c (Proc.devRef .tc main_v26) = (dats m 0 c).arrAt 3 cfg0.N := by
  unfold V₂; exact Function.update_self _ _ _

theorem V₂_other (c : Dev nD) (b : Ref sig .tc) (hb : b ≠ main_v26) : V₂ m c (Proc.devRef .tc b) = V₁ m c (Proc.devRef .tc b) := by
  unfold V₂; exact Function.update_of_ne (fun e => hb (Proc.devRef_injective _ e)) _ _

/-- Every window's array at the region's entry is the entry valuation's; an input's is still that at the exit. -/
theorem arrAt_entry (c : Dev nD) (w : Fin cfg0.W) : (dats m 0 c).arrAt w 0 = V m c (Pipeline.arrRef spec0 w) := A_eq m c w
theorem arrAt_exit_in (c : Dev nD) (w : Fin cfg0.W) (hw : (cfg0.win w).isOut = false) :
    (dats m 0 c).arrAt w cfg0.N = V m c (Pipeline.arrRef spec0 w) := ((dats m 0 c).arrAt_in w hw _).trans (A_eq m c w)

/-- The first stretch of host operations. -/
def seg0 : Pipeline.HostSeg (Name := ℕ) (U := UR sig nD τ) (pcfgs (F := F)) defs₀ 𝒱₀ L lv :=
  Pipeline.HostSeg.ofOps _ _ _ _ _ hostRefs hostOps0 (fun op h => sub_hostRefs op ((List.forall_iff_forall_mem.mp hostOps0_sub) op h))
    (by intro _ h; (repeat (cases h with | head => rfl | tail _ h => ?_)); exact nomatch h) (V₀ m) R

/-- The last stretch: the result given its two leading unit axes. -/
def seg1 : Pipeline.HostSeg (Name := ℕ) (U := UR sig nD τ) (pcfgs (F := F)) defs₀ 𝒱₀ L lv :=
  Pipeline.HostSeg.ofOps _ _ _ _ _ hostRefs hostOps1 (fun op h => sub_hostRefs op ((List.forall_iff_forall_mem.mp hostOps1_sub) op h))
    (by intro _ h; (repeat (cases h with | head => rfl | tail _ h => ?_)); exact nomatch h) (V₂ m) R

/-- The rest of the unscoped buffers reads a valuation only off the two arrays. -/
theorem rest_congr (c : Dev nD) (W W' : (b : Ref sig .tc) → Buf (Elt F) ((c.tc : Thread nD τ).loc b))
    (h : ∀ b, b ≠ main_v25 → b ≠ main_v26 → W b = W' b) :
    (Pipeline.unscopedRest spec0 c W : sProp 𝕄) = Pipeline.unscopedRest spec0 c W' := by
  unfold Pipeline.unscopedRest
  refine bigSep_congr fun b hb => ?_
  have hn := (Finset.mem_sdiff.mp hb).2
  rw [arrRefs_eq] at hn
  rw [h b (fun e => hn (by rw [e]; decide)) (fun e => hn (by rw [e]; decide))]

/-- Off the two arrays the exit valuation is the entry valuation. -/
theorem rest_same (c : Dev nD) :
    (Pipeline.unscopedRest spec0 c (fun b => V₂ m c (Proc.devRef .tc b)) : sProp 𝕄) = Pipeline.unscopedRest spec0 c (V m c) :=
  rest_congr c _ _ fun b _ h2 => V₂_other m c b h2

set_option backward.isDefEq.respectTransparency.types false in
/-- The region. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) hostRefs (V₁ m c) ∗ R c)
  post c := iprop(StableHlo.held (c : Thread nD τ) hostRefs (V₂ m c) ∗ R c)
  X c := iprop(∃ r, prngReg c r)
  Y c := iprop(∃ r, prngReg c r)
  Z c := Pipeline.unscopedRest spec0 c (V m c)
  hentry c := by
    rw [held_hostRefs, Pipeline.unscopedBufs_split₀ cfgs 0 winFacts₀0.arr_unscoped c]
    iintro ⟨⟨⟨Ha, Hrest⟩, Hp, HO⟩, -, -⟩
    imodintro
    isplitl [Ha]
    · iapply (deal m c (V m c) (fun w => (dats m 0 c).arrAt w 0) (arrAt_entry m c 0) (arrAt_entry m c 1) (arrAt_entry m c 2) (arrAt_entry m c 3)); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr] <;> iassumption
  hout c := by
    rw [Pipeline.ownSems0_none, show (dats m 0 c).Φ (Fin.last cfg0.N) = Pipeline.ΦA spec0 c from rfl]; unfold Pipeline.ΦA
    iintro ⟨Hr, Hp⟩
    isplitl [Hp]; · iexact Hp
    isplitr; · iempintro
    iexact Hr
  hexit c := by
    rw [held_hostRefs, Pipeline.unscopedBufs_split₀ cfgs 0 winFacts₀0.arr_unscoped c, rest_same]
    iintro ⟨Ha, HO, Hp, Hrest⟩
    imodintro
    isplitl [Ha Hrest]
    · isplitl [Ha]
      · iapply (join m c (fun b => V₂ m c (Proc.devRef .tc b)) (fun w => (dats m 0 c).arrAt w cfg0.N)
          ((arrAt_exit_in m c 0 rfl).trans (V₂_other m c main_v25 (by decide)).symm)
          ((arrAt_exit_in m c 1 rfl).trans (V₂_other m c main_v25 (by decide)).symm)
          ((arrAt_exit_in m c 2 rfl).trans (V₂_other m c main_v25 (by decide)).symm)
          (V₂_result m c).symm)
        iexact Ha
      · iexact Hrest
    isplitl [Hp]; · iexact Hp
    unfold Pipeline.Dat.owesAt Pipeline.owesWithin
    icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- The launch element: the pipeline library's at the staging cells. -/
def u₀ : UR sig nD τ := initOf (Pipeline.cells cfgs cellOf_inj) (Pipeline.launchToks cfgs cellOf_inj)

/-- What is read of the final memory: every buffer that is no kernel scratch holds the last valuation. -/
def QC : PUnit × MemSt nD τ sig (Elt F) → Prop := fun r =>
  ∀ c : Dev nD, ∀ b ∈ (Finset.univ.filter fun b : Ref sig .tc => ¬ b.isScoped), r.2.mem ((c.tc : Thread nD τ).loc b) = V₃ m c (Proc.devRef .tc b)

set_option backward.isDefEq.respectTransparency.types false in
/-- At the compiled mesh, for any float instance, from any memory with zero counters: every weakly fair execution of
    @main terminates, nothing faulting, and in every final state each buffer that is no kernel scratch holds the last
    valuation. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide)
    (O₀ := 0) (hL := fun _ _ => rfl) (G := fun _ => iprop(emp)) (u₀ := u₀)
    (hu₀ := by
      unfold u₀
      iintro Hu
      imodintro
      isplitl [Hu]
      · iapply (show (ownU _ : sProp 𝕄) ⊢ BI.own (EP (initOf (Pipeline.cells (Pipeline.pin (pcfgs (F := F)) adm) cellOf_inj)
          (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) hostRefs (V₀ m c) ∗ R c))
    (Tₙ := fun c => iprop(StableHlo.held (c : Thread nD τ) hostRefs (V₃ m c) ∗ ∃ r, prngReg c r))
    (hch := ⟨fun _ => .rfl, fun _ => .rfl, fun _ => .rfl, fun c =>
      (show iprop(StableHlo.held (c : Thread nD τ) hostRefs (V₃ m c) ∗ R c)
          ⊢ (iprop((StableHlo.held (c : Thread nD τ) hostRefs (V₃ m c) ∗ ∃ r, prngReg c r)
              ∗ ∃ W, owes (c : Thread nD τ) (0 : CellTallies nD τ sig Unit) W) : sProp 𝕄) from by
        iintro ⟨Hh, Hp, Ho⟩
        isplitr [Ho]
        · isplitl [Hh] <;> iassumption
        · iexact Ho)⟩)
    (hinit := by
      refine Pipeline.initEach L lv fun c => ?_
      rw [show unscopedBufs c (fun b => m ((c : Thread nD τ).loc b)) = StableHlo.held (c : Thread nD τ) hostRefs (V₀ m c) from
        (held_hostRefs c (V₀ m c)).symm]
      iintro ⟨⟨Hh, -, HO, -, Hp, -⟩, -⟩
      imodintro
      isplitl [Hh]; · iexact Hh
      isplitl [Hp]; · iexists _; iexact Hp
      iexists ∅; iexact HO)
    (QY := fun c s => ∀ b ∈ (Finset.univ.filter fun b : Ref sig .tc => ¬ b.isScoped), s.mem ((c.tc : Thread nD τ).loc b) = V₃ m c (Proc.devRef .tc b))
    (hfin := fun c s' => by
      rw [held_hostRefs]; unfold unscopedBufs
      iintro ⟨⟨Hh, -⟩, HSI⟩
      imodintro
      iapply (pointsTo_read_all (Finset.univ.filter fun b : Ref sig .tc => ¬ b.isScoped) (fun b => (c.tc : Thread nD τ).loc b)
        (fun b => V₃ m c (Proc.devRef .tc b)) s')
      isplitl [Hh] <;> iassumption)
    (hQ := fun _ h => h)

end Cert.Kernel.Hand

end
-- ==== Proof.HostReadsB.lean ====
/-
  The host operations before the region leave the argument alone: it is written by no operation and holds, when the
  region is entered, what it held at launch.
-/
import proofs.«124252_j31808527794313_2_alg».proof.Proof.DataB
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

variable (m : (ℓ : Loc nD τ sig) → Buf (Elt F) ℓ)

/-- The argument is written by no host operation. -/
theorem V_arg0 (c : Dev nD) : V m c main_arg0 = m ((c : Thread nD τ).loc main_arg0) := by
  dsimp only [V, Gen.hostOps0]
  after_results

end Cert.Kernel.Hand

end
-- ==== Proof.FinalB.lean ====
/-
  What the final memory holds at the argument and at the result, and the frame.

  The last stretch of host operations writes only the result, so the argument ends as the region left it, which is as
  the first stretch left it, which is as launched. The result is the region's output array given two leading unit axes.
-/
import proofs.«124252_j31808527794313_2_alg».proof.Proof.RunB
import proofs.«124252_j31808527794313_2_alg».proof.Proof.HostReadsB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

variable (m : (ℓ : Loc nD τ sig) → Buf (Elt F) ℓ) (ρ : Dev nD → PrngReg)

/-- The argument is no kernel scratch, nor is the result. -/
theorem arg0_mem : main_arg0 ∈ (Finset.univ.filter fun b : Ref sig .tc => ¬ b.isScoped) :=
  Finset.mem_filter.mpr ⟨Finset.mem_univ _, by decide⟩
theorem result_mem : main_v27 ∈ (Finset.univ.filter fun b : Ref sig .tc => ¬ b.isScoped) :=
  Finset.mem_filter.mpr ⟨Finset.mem_univ _, by decide⟩

/-- The argument at the end is the argument at launch. -/
theorem V₃_arg0 (c : Dev nD) : V₃ m c (Proc.devRef .tc main_arg0) = m ((c : Thread nD τ).loc main_arg0) := by
  have h1 : V₃ m c (Proc.devRef .tc main_arg0) = V₂ m c (Proc.devRef .tc main_arg0) := by
    dsimp only [V₃, Gen.hostOps1]
    after_results
  rw [h1, V₂_other m c main_arg0 (by decide)]
  exact V_arg0 m c

/-- The result at the end is the region's output array with two leading unit axes. -/
theorem V₃_result (c : Dev nD) :
    V₃ m c (Proc.devRef .tc main_v27)
      = broadcastInDim S1x1x4096x4096 ![2, 3] bcast_S4096x4096_S1x1x4096x4096_2_3 ((dats m 0 c).arrAt 3 cfg0.N) := by
  have h1 : V₃ m c (Proc.devRef .tc main_v27)
      = broadcastInDim S1x1x4096x4096 ![2, 3] bcast_S4096x4096_S1x1x4096x4096_2_3 (V₂ m c (Proc.devRef .tc main_v26)) := by
    dsimp only [V₃, Gen.hostOps1]
    after_results
  rw [h1, V₂_result]

/-- THE FRAME: the program runs to the end, faults nowhere, and leaves its argument unchanged. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun _ h c => (h c main_arg0 arg0_mem).trans (V₃_arg0 m c)) (run_main m ρ)

end Cert.Kernel.Hand

end
-- ==== Proof.BodyI.lean ====
/-
  One grid point of the pooling kernel, as a statement about memory: run on four whole staging buffers — the tile, the
  strip above, the strip below (each holding given contents) and the output tile (holding anything) — the body ends
  with the three inputs as they were and the output holding `tileOut`: the body's one store, which covers the whole
  output tile, of the value computed from the three loaded blocks and the grid coordinate. The body also loads the
  output tile before storing into it; that value is not used.
-/
import proofs.«124252_j31808527794313_2_alg».proof.Proof.Gen.KernelIdeal.Launch
import proofs.«124252_j31808527794313_2_alg».proof.Proof.Gen.KernelIdeal.Skeleton
import proofs.«124252_j31808527794313_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole tile and the whole strip, as the rectangles the body loads and stores through. -/
abbrev rTile : Rect S256x4096 := Rect.unit (s := S256x4096) ![0, 0] S256x4096.size inb_S256x4096_S256x4096_0_0
abbrev rStrip : Rect S8x4096 := Rect.unit (s := S8x4096) ![0, 0] S8x4096.size inb_S8x4096_S8x4096_0_0

/-- "This is the first tile" and "this is the last tile", as the body computes them from the grid coordinate. -/
abbrev isFirst (i : grid0.Coords) : BitVec 1 := Scalar.cmpi .eq (BitVec.ofNat 32 (i 0).val) 0#32
abbrev isLast (i : grid0.Coords) : BitVec 1 := Scalar.cmpi .eq (BitVec.ofNat 32 (i 0).val) 15#32

/-- What the output tile holds after the body: its one store, of the pooled value of the three loaded blocks. -/
def tileOut (i : grid0.Coords) (x0 : Vec F S256x4096 .f32) (x1 x2 : Vec F S8x4096 .f32) : Vec F S256x4096 .f32 :=
  View.canon [⟨rTile, k0_pay1 (isFirst i) (isLast i) (k0_pay2 (View.ld x0 rTile)) (k0_pay3 (View.ld x1 rStrip)) (k0_pay4 (View.ld x2 rStrip))
    (iota .tc S8x4096 32 [1] iota_S8x4096_d1_w32) (k0_pay5 (View.ld x2 rStrip)) k0_pay6⟩]

/-- The store covers the output tile. -/
theorem cover_tile (p0 : Vec F S256x4096 .f32) (y : S256x4096.Idx) :
    ∃ pc ∈ ([⟨rTile, p0⟩] : List (View.Piece (Elt F) S256x4096 .f32)), y ∈ pc.1.set :=
  View.cover_of_tiled [⟨rTile, p0⟩] S256x4096.size (by rfl) y

set_option maxHeartbeats 1000000 in
/-- The body's triple. -/
theorem sound_kernel (c : Dev nD) (E : Set ℕ) (i : grid0.Coords)
    (arg1 : Memref sig .tc .vmem S256x4096 .f32) (harg1 : arg1.IsWhole) (arg2 : Memref sig .tc .vmem S8x4096 .f32) (harg2 : arg2.IsWhole)
    (arg3 : Memref sig .tc .vmem S8x4096 .f32) (harg3 : arg3.IsWhole) (arg4 : Memref sig .tc .vmem S256x4096 .f32) (harg4 : arg4.IsWhole)
    (x0 : Vec F S256x4096 .f32) (x1 x2 : Vec F S8x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (tileOut i x0 x1 x2)) -∗ K ⟨⟩))
      ⊢ wp frame (wpE (defs₀ (F := F)) Variants.none c none) E (cc0__pool3x3_kernel i arg1 harg1 arg2 harg2 arg3 harg3 arg4 harg4) K := by
  simp only [cc0__pool3x3_kernel_eq_skeleton]; unfold cc0__pool3x3_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover_tile _)

end Cert.KernelIdeal.Hand

end
-- ==== Proof.DataI.lean ====
/-
  The proof data of the pooling region and its body obligation.

  When the region is entered the image is what the host operations before it have built (`V`). Three input windows
  read that ONE image: the tile of 256 rows at the grid point, the 8-row strip that ends just above the tile and the
  8-row strip that begins just below it. Each input's staging buffer holds its block of the image at every point, and
  the body leaves it there; the output's staging buffer holds, after the body, the pooled tile computed from the three
  blocks (`tileOut`). Since the three input windows stand on one array, its full share is dealt among them: a half
  for the tile and a quarter for each strip. Nothing is owed between points and the invariant is the untouched rest.
-/
import proofs.«124252_j31808527794313_2_alg».proof.Proof.BodyI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch, as the host operations' valuation; -/
abbrev V₀ (c : Dev nD) : Valuation τ sig (Elt F) := fun b => m ((c : Dev nD), b)
/-- and when the region is entered: the host operations before it have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tileOut (grid0.coords t) (iblk m c 0 t) (iblk m c 1 t) (iblk m c 2 t)
  Φ _ := Pipeline.ΦA spec0 c
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = tileOut (grid0.coords t) (iblk m c 0 t) (iblk m c 1 t) (iblk m c 2 t) := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.RunI.lean ====
/-
  The run of the whole program: host operations, the pooling region, one more host operation.

  The program is read as three segments. Between segments a core holds every buffer that is not a kernel scratch, whole,
  at a known valuation: at launch the memory's; after the first stretch of host operations their result; after the
  region the same with the output array replaced by what the region wrote; after the last stretch that stretch's
  result. At the region's entry the image's buffer, which three input windows read, is dealt among them — a half of
  the full share to the tile's window, a quarter to each strip's — and at the exit the three parts, whose contents are
  still the image, are joined again. The final memory is then read off the last valuation at every such buffer.
-/
import proofs.«124252_j31808527794313_2_alg».proof.Proof.DataI
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers a core holds between segments -/

/-- The TensorCore's references that are no kernel scratch, as device buffers. -/
def hostRefs : Finset (DevRef τ sig) := (StableHlo.tcRefs τ sig).filter fun b => ¬ b.isScoped

omit [FloatOps F] in
/-- Those buffers held at a valuation are the launch's unscoped buffers at it. -/
theorem held_hostRefs (c : Dev nD) (W : Valuation τ sig (Elt F)) :
    (StableHlo.held (c : Thread nD τ) hostRefs W : sProp 𝕄) = unscopedBufs c (fun b => W b) := by
  unfold unscopedBufs StableHlo.held hostRefs StableHlo.tcRefs
  rw [Finset.filter_map, bigSep_map]
  rfl

omit [FloatOps F] in
/-- A host operation on TensorCore references touches only such buffers. -/
theorem sub_hostRefs (op : HloOp τ sig (Elt F)) (h : op.bufs ⊆ StableHlo.tcRefs τ sig) : op.bufs ⊆ hostRefs := fun b hb =>
  Finset.mem_filter.mpr ⟨h hb, fun h' => Bool.false_ne_true ((op.no_scoped b hb).symm.trans h')⟩

/-! ## The image's share, dealt and joined -/

/-- The windows stand on two arrays: the image and the result. -/
theorem arrRefs_eq : (Finset.univ.image (Pipeline.arrRef spec0) : Finset (Ref sig .tc)) = {main_v25, main_v26} := by
  decide

theorem share0 (c : Dev nD) : (dats m 0 c).share 0 = fullShare.left := rfl
theorem share1 (c : Dev nD) : (dats m 0 c).share 1 = fullShare.right.left := rfl
theorem share2 (c : Dev nD) : (dats m 0 c).share 2 = fullShare.right.right := rfl
theorem share3 (c : Dev nD) : (dats m 0 c).share 3 = fullShare := rfl

/-- The arrays as the pipeline holds them, at contents `G w`, window by window. -/
theorem arrays_chain (c : Dev nD) (G : (w : Fin cfg0.W) → Buf (Elt F) ((cfg0.win w).arr.view.loc (c.tc : Thread nD τ))) :
    ((dats m 0 c).arrays G : sProp 𝕄)
      = iprop((((c.tc : Thread nD τ).loc main_v25) ↦{fullShare.left} G 0) ∗ (((c.tc : Thread nD τ).loc main_v25) ↦{fullShare.right.left} G 1)
          ∗ (((c.tc : Thread nD τ).loc main_v25) ↦{fullShare.right.right} G 2) ∗ (((c.tc : Thread nD τ).loc main_v26) ↦{fullShare} G 3)) := by
  unfold Dat.arrays
  rw [bigSep_W0, (arr_whole0 0).set_eq_univ, (arr_whole0 3).set_eq_univ, share0, share1, share2, share3]

/-- The two buffers behind the arrays, whole, at contents `W`. -/
theorem arrBufs_pair (c : Dev nD) (W : (b : Ref sig .tc) → Buf (Elt F) ((c.tc : Thread nD τ).loc b)) :
    (Pipeline.arrBufs spec0 c W : sProp 𝕄)
      = iprop((((c.tc : Thread nD τ).loc main_v25) ↦{fullShare} W main_v25) ∗ (((c.tc : Thread nD τ).loc main_v26) ↦{fullShare} W main_v26)) := by
  unfold Pipeline.arrBufs
  rw [arrRefs_eq, bigSep_insert (by decide), bigSep_singleton]
  rfl

/-- ENTRY: the image's buffer dealt among its three windows. -/
theorem deal (c : Dev nD) (W : (b : Ref sig .tc) → Buf (Elt F) ((c.tc : Thread nD τ).loc b))
    (G : (w : Fin cfg0.W) → Buf (Elt F) ((cfg0.win w).arr.view.loc (c.tc : Thread nD τ)))
    (h0 : G 0 = W main_v25) (h1 : G 1 = W main_v25) (h2 : G 2 = W main_v25) (h3 : G 3 = W main_v26) :
    (Pipeline.arrBufs spec0 c W : sProp 𝕄) ⊢ (dats m 0 c).arrays G := by
  rw [arrBufs_pair, arrays_chain, h0, h1, h2, h3]
  iintro ⟨H25, H26⟩
  ihave H := (pointsTo_share (PosShare.mem_left_op_right fullShare)).1 $$ H25
  icases H with ⟨Hl, Hr⟩
  ihave H' := (pointsTo_share (PosShare.mem_left_op_right fullShare.right)).1 $$ Hr
  icases H' with ⟨Hrl, Hrr⟩
  isplitl [Hl]; · iexact Hl
  isplitl [Hrl]; · iexact Hrl
  isplitl [Hrr]; · iexact Hrr
  iexact H26

/-- EXIT: the three parts joined again. -/
theorem join (c : Dev nD) (W : (b : Ref sig .tc) → Buf (Elt F) ((c.tc : Thread nD τ).loc b))
    (G : (w : Fin cfg0.W) → Buf (Elt F) ((cfg0.win w).arr.view.loc (c.tc : Thread nD τ)))
    (h0 : G 0 = W main_v25) (h1 : G 1 = W main_v25) (h2 : G 2 = W main_v25) (h3 : G 3 = W main_v26) :
    ((dats m 0 c).arrays G : sProp 𝕄) ⊢ Pipeline.arrBufs spec0 c W := by
  rw [arrBufs_pair, arrays_chain, h0, h1, h2, h3]
  iintro ⟨Hl, Hrl, Hrr, H26⟩
  isplitr [H26]; swap; · iexact H26
  iapply (pointsTo_share (PosShare.mem_left_op_right fullShare)).2
  isplitl [Hl]; · iexact Hl
  iapply (pointsTo_share (PosShare.mem_left_op_right fullShare.right)).2
  isplitl [Hrl]; · iexact Hrl
  iexact Hrr

/-! ## The segments -/

/-- No kernel variant, no level assigned (no core owes another anything), no prefetched table. -/
abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- The pipeline library's algebra is the whole of the certificate's. -/
abbrev EP : Emb (UR sig nD τ) (MT nD τ sig Unit (Elt F) ℕ (UR sig nD τ) ℕ) := emb₁

/-- What rides beside the buffers: the generator register at some state, and what the core owes — nothing. -/
abbrev R (c : Dev nD) : sProp 𝕄 :=
  iprop((∃ r, prngReg c r) ∗ ∃ W, owes (c : Thread nD τ) (0 : CellTallies nD τ sig Unit) W)

/-- The valuation when the region is entered: the first stretch of host operations has run; -/
abbrev V₁ (c : Dev nD) : Valuation τ sig (Elt F) := StableHlo.after hostOps0 (V₀ m c)
open Classical in
/-- when it is left: the result array at what the region wrote; -/
def V₂ (c : Dev nD) : Valuation τ sig (Elt F) :=
  Function.update (V₁ m c) (Proc.devRef .tc main_v26) ((dats m 0 c).arrAt 3 cfg0.N)
/-- and at the end. -/
abbrev V₃ (c : Dev nD) : Valuation τ sig (Elt F) := StableHlo.after hostOps1 (V₂ m c)

theorem V₂_result (c : Dev nD) : V₂ m c (Proc.devRef .tc main_v26) = (dats m 0 c).arrAt 3 cfg0.N := by
  unfold V₂; exact Function.update_self _ _ _

theorem V₂_other (c : Dev nD) (b : Ref sig .tc) (hb : b ≠ main_v26) : V₂ m c (Proc.devRef .tc b) = V₁ m c (Proc.devRef .tc b) := by
  unfold V₂; exact Function.update_of_ne (fun e => hb (Proc.devRef_injective _ e)) _ _

/-- Every window's array at the region's entry is the entry valuation's; an input's is still that at the exit. -/
theorem arrAt_entry (c : Dev nD) (w : Fin cfg0.W) : (dats m 0 c).arrAt w 0 = V m c (Pipeline.arrRef spec0 w) := A_eq m c w
theorem arrAt_exit_in (c : Dev nD) (w : Fin cfg0.W) (hw : (cfg0.win w).isOut = false) :
    (dats m 0 c).arrAt w cfg0.N = V m c (Pipeline.arrRef spec0 w) := ((dats m 0 c).arrAt_in w hw _).trans (A_eq m c w)

/-- The first stretch of host operations. -/
def seg0 : Pipeline.HostSeg (Name := ℕ) (U := UR sig nD τ) (pcfgs (F := F)) defs₀ 𝒱₀ L lv :=
  Pipeline.HostSeg.ofOps _ _ _ _ _ hostRefs hostOps0 (fun op h => sub_hostRefs op ((List.forall_iff_forall_mem.mp hostOps0_sub) op h))
    (by intro _ h; (repeat (cases h with | head => rfl | tail _ h => ?_)); exact nomatch h) (V₀ m) R

/-- The last stretch: the result given its two leading unit axes. -/
def seg1 : Pipeline.HostSeg (Name := ℕ) (U := UR sig nD τ) (pcfgs (F := F)) defs₀ 𝒱₀ L lv :=
  Pipeline.HostSeg.ofOps _ _ _ _ _ hostRefs hostOps1 (fun op h => sub_hostRefs op ((List.forall_iff_forall_mem.mp hostOps1_sub) op h))
    (by intro _ h; (repeat (cases h with | head => rfl | tail _ h => ?_)); exact nomatch h) (V₂ m) R

/-- The rest of the unscoped buffers reads a valuation only off the two arrays. -/
theorem rest_congr (c : Dev nD) (W W' : (b : Ref sig .tc) → Buf (Elt F) ((c.tc : Thread nD τ).loc b))
    (h : ∀ b, b ≠ main_v25 → b ≠ main_v26 → W b = W' b) :
    (Pipeline.unscopedRest spec0 c W : sProp 𝕄) = Pipeline.unscopedRest spec0 c W' := by
  unfold Pipeline.unscopedRest
  refine bigSep_congr fun b hb => ?_
  have hn := (Finset.mem_sdiff.mp hb).2
  rw [arrRefs_eq] at hn
  rw [h b (fun e => hn (by rw [e]; decide)) (fun e => hn (by rw [e]; decide))]

/-- Off the two arrays the exit valuation is the entry valuation. -/
theorem rest_same (c : Dev nD) :
    (Pipeline.unscopedRest spec0 c (fun b => V₂ m c (Proc.devRef .tc b)) : sProp 𝕄) = Pipeline.unscopedRest spec0 c (V m c) :=
  rest_congr c _ _ fun b _ h2 => V₂_other m c b h2

set_option backward.isDefEq.respectTransparency.types false in
/-- The region. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) hostRefs (V₁ m c) ∗ R c)
  post c := iprop(StableHlo.held (c : Thread nD τ) hostRefs (V₂ m c) ∗ R c)
  X c := iprop(∃ r, prngReg c r)
  Y c := iprop(∃ r, prngReg c r)
  Z c := Pipeline.unscopedRest spec0 c (V m c)
  hentry c := by
    rw [held_hostRefs, Pipeline.unscopedBufs_split₀ cfgs 0 winFacts₀0.arr_unscoped c]
    iintro ⟨⟨⟨Ha, Hrest⟩, Hp, HO⟩, -, -⟩
    imodintro
    isplitl [Ha]
    · iapply (deal m c (V m c) (fun w => (dats m 0 c).arrAt w 0) (arrAt_entry m c 0) (arrAt_entry m c 1) (arrAt_entry m c 2) (arrAt_entry m c 3)); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr] <;> iassumption
  hout c := by
    rw [Pipeline.ownSems0_none, show (dats m 0 c).Φ (Fin.last cfg0.N) = Pipeline.ΦA spec0 c from rfl]; unfold Pipeline.ΦA
    iintro ⟨Hr, Hp⟩
    isplitl [Hp]; · iexact Hp
    isplitr; · iempintro
    iexact Hr
  hexit c := by
    rw [held_hostRefs, Pipeline.unscopedBufs_split₀ cfgs 0 winFacts₀0.arr_unscoped c, rest_same]
    iintro ⟨Ha, HO, Hp, Hrest⟩
    imodintro
    isplitl [Ha Hrest]
    · isplitl [Ha]
      · iapply (join m c (fun b => V₂ m c (Proc.devRef .tc b)) (fun w => (dats m 0 c).arrAt w cfg0.N)
          ((arrAt_exit_in m c 0 rfl).trans (V₂_other m c main_v25 (by decide)).symm)
          ((arrAt_exit_in m c 1 rfl).trans (V₂_other m c main_v25 (by decide)).symm)
          ((arrAt_exit_in m c 2 rfl).trans (V₂_other m c main_v25 (by decide)).symm)
          (V₂_result m c).symm)
        iexact Ha
      · iexact Hrest
    isplitl [Hp]; · iexact Hp
    unfold Pipeline.Dat.owesAt Pipeline.owesWithin
    icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- The launch element: the pipeline library's at the staging cells. -/
def u₀ : UR sig nD τ := initOf (Pipeline.cells cfgs cellOf_inj) (Pipeline.launchToks cfgs cellOf_inj)

/-- What is read of the final memory: every buffer that is no kernel scratch holds the last valuation. -/
def QC : PUnit × MemSt nD τ sig (Elt F) → Prop := fun r =>
  ∀ c : Dev nD, ∀ b ∈ (Finset.univ.filter fun b : Ref sig .tc => ¬ b.isScoped), r.2.mem ((c.tc : Thread nD τ).loc b) = V₃ m c (Proc.devRef .tc b)

set_option backward.isDefEq.respectTransparency.types false in
/-- At the compiled mesh, for any float instance, from any memory with zero counters: every weakly fair execution of
    @main terminates, nothing faulting, and in every final state each buffer that is no kernel scratch holds the last
    valuation. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide)
    (O₀ := 0) (hL := fun _ _ => rfl) (G := fun _ => iprop(emp)) (u₀ := u₀)
    (hu₀ := by
      unfold u₀
      iintro Hu
      imodintro
      isplitl [Hu]
      · iapply (show (ownU _ : sProp 𝕄) ⊢ BI.own (EP (initOf (Pipeline.cells (Pipeline.pin (pcfgs (F := F)) adm) cellOf_inj)
          (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) hostRefs (V₀ m c) ∗ R c))
    (Tₙ := fun c => iprop(StableHlo.held (c : Thread nD τ) hostRefs (V₃ m c) ∗ ∃ r, prngReg c r))
    (hch := ⟨fun _ => .rfl, fun _ => .rfl, fun _ => .rfl, fun c =>
      (show iprop(StableHlo.held (c : Thread nD τ) hostRefs (V₃ m c) ∗ R c)
          ⊢ (iprop((StableHlo.held (c : Thread nD τ) hostRefs (V₃ m c) ∗ ∃ r, prngReg c r)
              ∗ ∃ W, owes (c : Thread nD τ) (0 : CellTallies nD τ sig Unit) W) : sProp 𝕄) from by
        iintro ⟨Hh, Hp, Ho⟩
        isplitr [Ho]
        · isplitl [Hh] <;> iassumption
        · iexact Ho)⟩)
    (hinit := by
      refine Pipeline.initEach L lv fun c => ?_
      rw [show unscopedBufs c (fun b => m ((c : Thread nD τ).loc b)) = StableHlo.held (c : Thread nD τ) hostRefs (V₀ m c) from
        (held_hostRefs c (V₀ m c)).symm]
      iintro ⟨⟨Hh, -, HO, -, Hp, -⟩, -⟩
      imodintro
      isplitl [Hh]; · iexact Hh
      isplitl [Hp]; · iexists _; iexact Hp
      iexists ∅; iexact HO)
    (QY := fun c s => ∀ b ∈ (Finset.univ.filter fun b : Ref sig .tc => ¬ b.isScoped), s.mem ((c.tc : Thread nD τ).loc b) = V₃ m c (Proc.devRef .tc b))
    (hfin := fun c s' => by
      rw [held_hostRefs]; unfold unscopedBufs
      iintro ⟨⟨Hh, -⟩, HSI⟩
      imodintro
      iapply (pointsTo_read_all (Finset.univ.filter fun b : Ref sig .tc => ¬ b.isScoped) (fun b => (c.tc : Thread nD τ).loc b)
        (fun b => V₃ m c (Proc.devRef .tc b)) s')
      isplitl [Hh] <;> iassumption)
    (hQ := fun _ h => h)

end Cert.KernelIdeal.Hand

end
-- ==== Proof.KernelImage.lean ====
/-
  The image the kernel's host operations build before the region: the two columns of the boxes scaled by 4096 and
  converted to integers, a negative index wrapped once by adding 4096, the two index columns joined side by side, and
  ones scattered into a zero image at those (row, column) pairs. One definition per stage, in the program's order and
  with the program's own operations, so that the program's term for the scattered image is `scatterImg` by unfolding.
-/
import proofs.«124252_j31808527794313_2_alg».proof.KernelIdeal

noncomputable section

namespace Cert.KernelIdeal.Img

open Idealize.ShloMosaic Cert.KernelIdeal Cert.KernelIdeal.Facts₀

variable {F : FTy → Type} [FloatOps F] [Cert.KernelIdeal.Facts]

/-- Column `off` of the boxes, times 4096, as a 32-bit integer. -/
def scaled (off : Fin 2 → Nat) (hs : S20000x2.Slices off S20000x1) (x0 : FVec F S20000x2 .f32) : IVec S20000 32 :=
  fptosi 32 (mulf (shapeCast S20000 (extractStridedSlice S20000x1 off x0 hs) shapeCasts_S20000x1_S20000)
    (broadcastInDim S20000 ![] bcast_S_S20000 (constant S_ .f32 0x45800000#32)))

/-- A negative index wrapped once: `v + 4096` where `v < 0`, else `v`. -/
def wrapped (v : IVec S20000 32) : IVec S20000 32 :=
  select (cmpi .slt v (broadcastInDim S20000 ![] bcast_S_S20000 (constantI S_ 32 0#32)))
    (addi v (broadcastInDim S20000 ![] bcast_S_S20000 (constantI S_ 32 4096#32))) v

/-- The row indices and the column indices. -/
def rowIdx (x0 : FVec F S20000x2 .f32) : IVec S20000 32 := wrapped (scaled ![0, 0] slices_S20000x2_S20000x1_0_0 x0)
def colIdx (x0 : FVec F S20000x2 .f32) : IVec S20000 32 := wrapped (scaled ![0, 1] slices_S20000x2_S20000x1_0_1 x0)

/-- The index pairs, one row per box. -/
def pairs (a b : IVec S20000 32) : IVec S20000x2 32 :=
  concatenate S20000x2 1 [⟨S20000x1, broadcastInDim S20000x1 ![0] bcast_S20000_S20000x1_0 a⟩,
    ⟨S20000x1, broadcastInDim S20000x1 ![0] bcast_S20000_S20000x1_0 b⟩] concatenates_S20000x1_S20000x1_S20000x2_d1

/-- Ones scattered into the zero image at the index pairs `(a k, b k)`. -/
def scatterAt (a b : IVec S20000 32) : FVec F S4096x4096 .f32 :=
  Host.scatter scatter_S4096x4096_S20000x2_S20000_n_01_01_1 (fun _ b => b)
    (broadcastInDim S4096x4096 ![] bcast_S_S4096x4096 (constant S_ .f32 0x00000000#32))
    (pairs a b)
    (broadcastInDim S20000 ![] bcast_S_S20000 (constant S_ .f32 0x3F800000#32))

/-- The image the region is launched on, as a function of the boxes. -/
def scatterImg (x0 : FVec F S20000x2 .f32) : FVec F S4096x4096 .f32 := scatterAt (rowIdx x0) (colIdx x0)

end Cert.KernelIdeal.Img

end
-- ==== Proof.HostReads.lean ====
/-
  The host operations before the region, read back as terms.

  When the region is entered each buffer holds what the host operations have left in it. The buffer the region reads
  its image from holds the scatter's result, spelt with the program's own operations over the argument; the argument
  itself is written by no operation and holds what it held at launch.
-/
import proofs.«124252_j31808527794313_2_alg».proof.Proof.DataI
import proofs.«124252_j31808527794313_2_alg».proof.Proof.KernelImage
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

variable (m : (ℓ : Loc nD τ sig) → Buf (Elt F) ℓ)

/-- The argument is written by no host operation. -/
theorem V_arg0 (c : Dev nD) : V m c main_arg0 = m ((c : Thread nD τ).loc main_arg0) := by
  dsimp only [V, Gen.hostOps0]
  after_results

/-- The image's buffer holds the scatter's result over the argument. -/
theorem V_image (c : Dev nD) :
    V m c main_v25 = Cert.KernelIdeal.Img.scatterImg (F := F) (m ((c : Thread nD τ).loc main_arg0)) := by
  dsimp only [V, Gen.hostOps0]
  after_results_simp
  rfl

end Cert.KernelIdeal.Hand

end
-- ==== Proof.FinalI.lean ====
/-
  What the final memory holds at the argument and at the result, and the frame.

  The last stretch of host operations writes only the result, so the argument ends as the region left it, which is as
  the first stretch left it, which is as launched. The result is the region's output array given two leading unit axes.
-/
import proofs.«124252_j31808527794313_2_alg».proof.Proof.RunI
import proofs.«124252_j31808527794313_2_alg».proof.Proof.HostReads

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

variable (m : (ℓ : Loc nD τ sig) → Buf (Elt F) ℓ) (ρ : Dev nD → PrngReg)

/-- The argument is no kernel scratch, nor is the result. -/
theorem arg0_mem : main_arg0 ∈ (Finset.univ.filter fun b : Ref sig .tc => ¬ b.isScoped) :=
  Finset.mem_filter.mpr ⟨Finset.mem_univ _, by decide⟩
theorem result_mem : main_v27 ∈ (Finset.univ.filter fun b : Ref sig .tc => ¬ b.isScoped) :=
  Finset.mem_filter.mpr ⟨Finset.mem_univ _, by decide⟩

/-- The argument at the end is the argument at launch. -/
theorem V₃_arg0 (c : Dev nD) : V₃ m c (Proc.devRef .tc main_arg0) = m ((c : Thread nD τ).loc main_arg0) := by
  have h1 : V₃ m c (Proc.devRef .tc main_arg0) = V₂ m c (Proc.devRef .tc main_arg0) := by
    dsimp only [V₃, Gen.hostOps1]
    after_results
  rw [h1, V₂_other m c main_arg0 (by decide)]
  exact V_arg0 m c

/-- The result at the end is the region's output array with two leading unit axes. -/
theorem V₃_result (c : Dev nD) :
    V₃ m c (Proc.devRef .tc main_v27)
      = broadcastInDim S1x1x4096x4096 ![2, 3] bcast_S4096x4096_S1x1x4096x4096_2_3 ((dats m 0 c).arrAt 3 cfg0.N) := by
  have h1 : V₃ m c (Proc.devRef .tc main_v27)
      = broadcastInDim S1x1x4096x4096 ![2, 3] bcast_S4096x4096_S1x1x4096x4096_2_3 (V₂ m c (Proc.devRef .tc main_v26)) := by
    dsimp only [V₃, Gen.hostOps1]
    after_results
  rw [h1, V₂_result]

/-- THE FRAME: the program runs to the end, faults nowhere, and leaves its argument unchanged. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun _ h c => (h c main_arg0 arg0_mem).trans (V₃_arg0 m c)) (run_main m ρ)

end Cert.KernelIdeal.Hand

end
-- ==== Proof.Spec.lean ====
/-
  The specification both programs are compared against: a 3×3 maximum filter with −∞ outside the image.

  An image is a function on the 4096 × 4096 grid with values in the extended reals. Read at integer coordinates it is
  −∞ outside the grid (`at2`), so that a maximum over a window that overhangs the border ignores the overhang. The
  filter is separable: first the maximum of three horizontal neighbours (`hmax3`), then of three vertical ones
  (`pool`). `G` is the filtered image laid out with two leading unit axes.

  The second half states the same filter on ONE tile of 256 rows, given the tile itself and the two 8-row strips that
  hold the row just above it (the strip's last row) and the row just below it (the strip's first row); at the first
  tile there is no row above and at the last tile none below. That the tile's filter is the image's filter when the
  tile and the strips are the image's rows at those places is proved beside this module (`blockPool_eq`).
-/
import Idealize.ShloMosaic.PureOps.Ideal
import Idealize.ShloMosaic.Lib.ValueIdx

noncomputable section

namespace Cert.Pool

open Idealize.ShloMosaic Idealize.ShloMosaic.ValueIdx

/-- The image's shape, and the result's. -/
abbrev SImg : Shape := ⟨2, ![4096, 4096]⟩
abbrev SOut : Shape := ⟨4, ![1, 1, 4096, 4096]⟩
/-- A tile of 256 rows and a strip of 8 rows. -/
abbrev STile : Shape := ⟨2, ![256, 4096]⟩
abbrev SStrip : Shape := ⟨2, ![8, 4096]⟩

/-- The image at integer coordinates: −∞ outside the grid. -/
def at2 (img : SImg.Idx → EReal) (r c : Int) : EReal :=
  if h : 0 ≤ r ∧ r < 4096 ∧ 0 ≤ c ∧ c < 4096 then img (ix2 ⟨r.toNat, by omega⟩ ⟨c.toNat, by omega⟩) else ⊥

/-- The maximum of the three horizontal neighbours. -/
def hmax3 (img : SImg.Idx → EReal) (r c : Int) : EReal :=
  max (max (at2 img r (c - 1)) (at2 img r c)) (at2 img r (c + 1))

/-- The 3×3 maximum: the maximum of the three vertical neighbours of the horizontal maxima. -/
def pool (img : SImg.Idx → EReal) (r c : Int) : EReal :=
  max (max (hmax3 img (r - 1) c) (hmax3 img r c)) (hmax3 img (r + 1) c)

/-- The filtered image, with two leading unit axes. -/
def G (img : SImg.Idx → EReal) : SOut.Idx → EReal := fun i => pool img (i 2).val (i 3).val

/-- Inside a block of `R` rows: the maximum of the three horizontal neighbours in row `p`, −∞ past the row's ends. -/
def hrow {R : Nat} (x : (⟨2, ![R, 4096]⟩ : Shape).Idx → EReal) (p : Fin R) (q : Fin 4096) : EReal :=
  max (max (if h : q.val = 0 then ⊥ else x (ix2 p ⟨q.val - 1, by omega⟩)) (x (ix2 p q)))
    (if h : q.val = 4095 then ⊥ else x (ix2 p ⟨q.val + 1, by omega⟩))

/-- The filter on tile `n` of 16, from the tile `xm`, the strip `xp` whose LAST row lies just above the tile and the strip
    `xn` whose FIRST row lies just below it. -/
def blockPool (n : Nat) (xm : STile.Idx → EReal) (xp xn : SStrip.Idx → EReal) (p : Fin 256) (q : Fin 4096) : EReal :=
  max (max (if h : p.val = 0 then (if n = 0 then ⊥ else hrow xp 7 q) else hrow xm ⟨p.val - 1, by omega⟩ q) (hrow xm p q))
    (if h : p.val = 255 then (if n = 15 then ⊥ else hrow xn 0 q) else hrow xm ⟨p.val + 1, by omega⟩ q)

end Cert.Pool

end
-- ==== Proof.Payload.lean ====
/-
  The value one grid point stores, read at one position of its tile, at the ideal instance.

  The body takes, for the tile and for each of the two strips, the maximum of every element with its left and right
  neighbours — a rotation of the columns by one place either way, the column that wrapped around replaced by −∞ —
  and then, for the tile, the maximum of every row with the rows above and below — a rotation of the rows by one place
  either way, the row that wrapped around replaced by the upper strip's last row (top) or the lower strip's first row
  (bottom), each −∞ at the first, respectively last, grid point. Read at row p and column q this is the tile's filter
  `Cert.Pool.blockPool` of the specification.
-/
import proofs.«124252_j31808527794313_2_alg».proof.Proof.Gen.KernelIdeal.Skeleton
import proofs.«124252_j31808527794313_2_alg».proof.Proof.Spec
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal

noncomputable section

namespace Cert.KernelIdeal.Payload

open Cert.KernelIdeal Cert.KernelIdeal.Gen Idealize.ShloMosaic Idealize.ShloMosaic.ValueIdx

/-- The word 0xFF800000 denotes −∞, the bottom of the extended reals. -/
theorem ofBits_neg_inf : Ideal.ofBits .f32 0xFF800000#32 = (⊥ : EReal) := by
  simp [Ideal.ofBits, Ideal.ieee]

/-- A select on the comparison of two 32-bit words of naturals below 2^32 is the `if` on the naturals. -/
theorem select_cmpi_eq {α : Type} (a c : Nat) (ha : a < 4294967296) (hc : c < 4294967296) (A B : α) :
    Scalar.select (IntOp.cmpi .eq (BitVec.ofNat 32 a) (BitVec.ofNat 32 c)) A B = if a = c then A else B := by
  show (if BitVec.ofBool (BitVec.ofNat 32 a == BitVec.ofNat 32 c) = 1#1 then A else B) = if a = c then A else B
  by_cases h : a = c
  · subst h; simp
  · have hne : (BitVec.ofNat 32 a == BitVec.ofNat 32 c) = false := by
      rw [beq_eq_false_iff_ne]
      intro e
      have := congrArg BitVec.toNat e
      simp [BitVec.toNat_ofNat] at this
      omega
    rw [hne, if_neg h]
    exact if_neg (by decide)

/-- A rotation along the columns read at row `p`, column `q`: the operand at column `q − s` around the end. -/
theorem rot1_apply {R C : Nat} {α : Type} (s : BitVec 32) (x : (⟨2, ![R, C]⟩ : Shape).Idx → α)
    (h : (⟨2, ![R, C]⟩ : Shape).Rotates 1 none) (p : Fin R) (q : Fin C) :
    dynamicRotate 1 s none x h (ix2 p q)
      = x (ix2 p ⟨(q.val + C - s.toNat % C) % C, Nat.mod_lt _ (by have := q.isLt; omega)⟩) := by
  refine dynamicRotate_apply (1 : Fin 2) s x h _ _ ?_
  intro b
  match b with
  | ⟨0, _⟩ => rfl
  | ⟨1, _⟩ => rfl

/-- A rotation along the rows read at row `p`, column `q`: the operand at row `p − s` around the end. -/
theorem rot0_apply {R C : Nat} {α : Type} (s : BitVec 32) (x : (⟨2, ![R, C]⟩ : Shape).Idx → α)
    (h : (⟨2, ![R, C]⟩ : Shape).Rotates 0 none) (p : Fin R) (q : Fin C) :
    dynamicRotate 0 s none x h (ix2 p q)
      = x (ix2 ⟨(p.val + R - s.toNat % R) % R, Nat.mod_lt _ (by have := p.isLt; omega)⟩ q) := by
  refine dynamicRotate_apply (0 : Fin 2) s x h _ _ ?_
  intro b
  match b with
  | ⟨0, _⟩ => rfl
  | ⟨1, _⟩ => rfl

/-- The horizontal maximum of three neighbours, as the program computes it (two rotations along the columns, the
    wrapped-around column replaced by −∞ through a comparison of the column number), read at row `p`, column `q`. -/
theorem hmax_apply {R : Nat} (x : FVec Ideal (⟨2, ![R, 4096]⟩ : Shape) .f32)
    (hI : (⟨2, ![R, 4096]⟩ : Shape).Iotas .tc 32 [1]) (hR : (⟨2, ![R, 4096]⟩ : Shape).Rotates 1 none)
    (p : Fin R) (q : Fin 4096) :
    maximumf (F := Ideal)
      (maximumf
        (select (cmpi .eq (iota .tc (⟨2, ![R, 4096]⟩ : Shape) 32 [1] hI) (broadcast (⟨2, ![R, 4096]⟩ : Shape) 0#32))
          (broadcast (⟨2, ![R, 4096]⟩ : Shape) (Scalar.ofBits (F := Ideal) .f32 0xFF800000#32)) (dynamicRotate 1 1#32 none x hR)) x)
      (select (cmpi .eq (iota .tc (⟨2, ![R, 4096]⟩ : Shape) 32 [1] hI) (broadcast (⟨2, ![R, 4096]⟩ : Shape) 4095#32))
          (broadcast (⟨2, ![R, 4096]⟩ : Shape) (Scalar.ofBits (F := Ideal) .f32 0xFF800000#32)) (dynamicRotate 1 4095#32 none x hR))
      (ix2 p q)
    = Cert.Pool.hrow x p q := by
  have hq : q.val < 4096 := q.isLt
  have hi : iota .tc (⟨2, ![R, 4096]⟩ : Shape) 32 [1] hI (ix2 p q) = BitVec.ofNat 32 q.val :=
    iota_single_apply .tc (⟨2, ![R, 4096]⟩ : Shape) 32 1 hI (ix2 p q)
  unfold Cert.Pool.hrow
  show max (max (Scalar.select (IntOp.cmpi .eq (iota .tc (⟨2, ![R, 4096]⟩ : Shape) 32 [1] hI (ix2 p q)) (BitVec.ofNat 32 0))
        (Ideal.ofBits .f32 0xFF800000#32) (dynamicRotate 1 1#32 none x hR (ix2 p q))) (x (ix2 p q)))
      (Scalar.select (IntOp.cmpi .eq (iota .tc (⟨2, ![R, 4096]⟩ : Shape) 32 [1] hI (ix2 p q)) (BitVec.ofNat 32 4095))
        (Ideal.ofBits .f32 0xFF800000#32) (dynamicRotate 1 4095#32 none x hR (ix2 p q))) = _
  rw [hi, select_cmpi_eq _ _ (by omega) (by omega), select_cmpi_eq _ _ (by omega) (by omega), rot1_apply, rot1_apply,
    ofBits_neg_inf]
  have e1 : (if q.val = 0 then (⊥ : EReal) else x (ix2 p ⟨(q.val + 4096 - (1#32).toNat % 4096) % 4096, Nat.mod_lt _ (by omega)⟩))
      = (if h : q.val = 0 then (⊥ : EReal) else x (ix2 p ⟨q.val - 1, by omega⟩)) := by
    by_cases h : q.val = 0
    · rw [if_pos h, dif_pos h]
    · rw [if_neg h, dif_neg h]
      refine congrArg x (congrArg (ix2 p) (Fin.ext ?_))
      show (q.val + 4096 - 1) % 4096 = q.val - 1
      omega
  have e2 : (if q.val = 4095 then (⊥ : EReal) else x (ix2 p ⟨(q.val + 4096 - (4095#32).toNat % 4096) % 4096, Nat.mod_lt _ (by omega)⟩))
      = (if h : q.val = 4095 then (⊥ : EReal) else x (ix2 p ⟨q.val + 1, by omega⟩)) := by
    by_cases h : q.val = 4095
    · rw [if_pos h, dif_pos h]
    · rw [if_neg h, dif_neg h]
      refine congrArg x (congrArg (ix2 p) (Fin.ext ?_))
      show (q.val + 4096 - 4095) % 4096 = q.val + 1
      omega
  rw [e1, e2]

/-- The comparison of two 32-bit words of naturals below 2^32 answers the bit 1 exactly when the naturals are equal. -/
theorem cmpi_eq_one_iff (a c : Nat) (ha : a < 4294967296) (hc : c < 4294967296) :
    Scalar.cmpi .eq (BitVec.ofNat 32 a) (BitVec.ofNat 32 c) = 1#1 ↔ a = c := by
  show BitVec.ofBool (BitVec.ofNat 32 a == BitVec.ofNat 32 c) = 1#1 ↔ a = c
  by_cases h : a = c
  · subst h; simp
  · have hne : (BitVec.ofNat 32 a == BitVec.ofNat 32 c) = false := by
      rw [beq_eq_false_iff_ne]
      intro e
      have := congrArg BitVec.toNat e
      simp [BitVec.toNat_ofNat] at this
      omega
    rw [hne]
    exact ⟨fun e => absurd e (by decide), fun e => absurd e h⟩

/-- A select between two vectors on one bit, read at an index. -/
theorem scalar_select_apply {s : Shape} {α : Type} (c : BitVec 1) (a b : s.Idx → α) (i : s.Idx) :
    (Scalar.select c a b) i = if c = 1#1 then a i else b i := by
  show (if c = 1#1 then a else b) i = _
  by_cases h : c = 1#1
  · rw [if_pos h, if_pos h]
  · rw [if_neg h, if_neg h]

/-- Row `r` of an 8-row strip cut out as a one-row block, read at column `q`. -/
theorem slice_row_apply {α : Type} (r : Nat) (hr : r < 8) (x : S8x4096.Idx → α) (h : S8x4096.Slices ![r, 0] S1x4096)
    (q : Fin 4096) : extractStridedSlice S1x4096 ![r, 0] x h (ix2 (0 : Fin 1) q) = x (ix2 (⟨r, hr⟩ : Fin 8) q) := by
  refine extractStridedSlice_apply _ x h _ _ ?_
  intro a
  match a with
  | ⟨0, _⟩ => rfl
  | ⟨1, _⟩ => show q.val = 0 + q.val; omega

/-- The tile's horizontal maxima are `hrow` of the tile. -/
theorem pay2_apply (xm : Vec Ideal S256x4096 .f32) (p : Fin 256) (q : Fin 4096) :
    Gen.k0_pay2 (F := Ideal) xm (ix2 p q) = Cert.Pool.hrow xm p q := by
  have hs : shapeCast S256x4096 xm Gen.shapeCasts_S256x4096_S256x4096 = xm := shapeCast_self _ _
  refine (hmax_apply (R := 256) (shapeCast S256x4096 xm Gen.shapeCasts_S256x4096_S256x4096) Gen.iota_S256x4096_d1_w32
    Gen.rotates_S256x4096_d1 p q).trans ?_
  rw [hs]

/-- The upper strip's horizontal maxima are `hrow` of the strip. -/
theorem pay3_apply (xp : Vec Ideal S8x4096 .f32) (p : Fin 8) (q : Fin 4096) :
    Gen.k0_pay3 (F := Ideal) xp (ix2 p q) = Cert.Pool.hrow xp p q := by
  have hs : shapeCast S8x4096 xp Gen.shapeCasts_S8x4096_S8x4096 = xp := shapeCast_self _ _
  refine (hmax_apply (R := 8) (shapeCast S8x4096 xp Gen.shapeCasts_S8x4096_S8x4096) Gen.iota_S8x4096_d1_w32
    Gen.rotates_S8x4096_d1 p q).trans ?_
  rw [hs]

/-- The lower strip's horizontal maxima as the stored value's definition spells them: over the strip, its rotation by
    one column, the column numbers and the zero splat, each handed over as a value of its own. -/
def botRow (v33 v35 : FVec Ideal S8x4096 .f32) (v34 v36 : IVec S8x4096 32) : FVec Ideal S8x4096 .f32 :=
  maximumf
    (maximumf (select (cmpi .eq v34 v36) (broadcast S8x4096 (Scalar.ofBits (F := Ideal) .f32 0xFF800000#32)) v35) v33)
    (select (cmpi .eq v34 (broadcast S8x4096 4095#32)) (broadcast S8x4096 (Scalar.ofBits (F := Ideal) .f32 0xFF800000#32))
      (dynamicRotate 1 4095#32 none v33 Gen.rotates_S8x4096_d1))

/-- … and they are `hrow` of the strip. -/
theorem botRow_apply (xn : Vec Ideal S8x4096 .f32) (hI : S8x4096.Iotas .tc 32 [1]) (p : Fin 8) (q : Fin 4096) :
    botRow (Gen.k0_pay4 xn) (Gen.k0_pay5 xn) (iota .tc S8x4096 32 [1] hI) Gen.k0_pay6 (ix2 p q) = Cert.Pool.hrow xn p q := by
  have hs : shapeCast S8x4096 xn Gen.shapeCasts_S8x4096_S8x4096 = xn := shapeCast_self _ _
  refine (hmax_apply (R := 8) (shapeCast S8x4096 xn Gen.shapeCasts_S8x4096_S8x4096) hI
    Gen.rotates_S8x4096_d1 p q).trans ?_
  rw [hs]

/-- The stored value read at row `p`, column `q`, over ANY horizontally pooled tile and strips: the vertical maximum of
    three, the tile's own rows above and below, except at the tile's first and last row, where the strips' rows
    stand in, or −∞ when the bit says there is no such row. -/
theorem pay1_apply (v0 v1 : BitVec 1) (v16 : FVec Ideal S256x4096 .f32) (v31 v33 : FVec Ideal S8x4096 .f32)
    (v34 : IVec S8x4096 32) (v35 : FVec Ideal S8x4096 .f32) (v36 : IVec S8x4096 32) (p : Fin 256) (q : Fin 4096) :
    Gen.k0_pay1 (F := Ideal) v0 v1 v16 v31 v33 v34 v35 v36 (ix2 p q)
      = max (max (if h : p.val = 0 then (if v0 = 1#1 then (⊥ : EReal) else v31 (ix2 (7 : Fin 8) q))
                  else v16 (ix2 ⟨p.val - 1, by omega⟩ q)) (v16 (ix2 p q)))
          (if h : p.val = 255 then (if v1 = 1#1 then (⊥ : EReal) else botRow v33 v35 v34 v36 (ix2 (0 : Fin 8) q))
            else v16 (ix2 ⟨p.val + 1, by omega⟩ q)) := by
  have hp : p.val < 256 := p.isLt
  have hi : iota .tc S256x4096 32 [0] Gen.iota_S256x4096_d0_w32 (ix2 p q) = BitVec.ofNat 32 p.val :=
    iota_single_apply .tc S256x4096 32 0 Gen.iota_S256x4096_d0_w32 (ix2 p q)
  show max (max (Scalar.select (IntOp.cmpi .eq (iota .tc S256x4096 32 [0] Gen.iota_S256x4096_d0_w32 (ix2 p q)) (BitVec.ofNat 32 0))
          (broadcastTo S256x4096 (shapeCast S1x4096 (Scalar.select v0 (broadcast S1x4096 (Ideal.ofBits .f32 0xFF800000#32))
            (extractStridedSlice S1x4096 ![7, 0] v31 Gen.slices_S8x4096_o7_0_S1x4096)) Gen.shapeCasts_S1x4096_S1x4096)
            Gen.broadcasts_S1x4096_S256x4096 (ix2 p q))
          (dynamicRotate 0 1#32 none v16 Gen.rotates_S256x4096_d0 (ix2 p q))) (v16 (ix2 p q)))
      (Scalar.select (IntOp.cmpi .eq (iota .tc S256x4096 32 [0] Gen.iota_S256x4096_d0_w32 (ix2 p q)) (BitVec.ofNat 32 255))
          (broadcastTo S256x4096 (shapeCast S1x4096 (Scalar.select v1 (broadcast S1x4096 (Ideal.ofBits .f32 0xFF800000#32))
            (extractStridedSlice S1x4096 ![0, 0] (botRow v33 v35 v34 v36) Gen.slices_S8x4096_o0_0_S1x4096)) Gen.shapeCasts_S1x4096_S1x4096)
            Gen.broadcasts_S1x4096_S256x4096 (ix2 p q))
          (dynamicRotate 0 255#32 none v16 Gen.rotates_S256x4096_d0 (ix2 p q))) = _
  rw [hi, select_cmpi_eq _ _ (by omega) (by omega), select_cmpi_eq _ _ (by omega) (by omega), rot0_apply, rot0_apply,
    broadcastTo_1b_ab_apply, broadcastTo_1b_ab_apply, shapeCast_self, shapeCast_self, ofBits_neg_inf]
  refine congrArg₂ max (congrArg₂ max ?_ rfl) ?_
  · by_cases h : p.val = 0
    · rw [if_pos h, dif_pos h, scalar_select_apply, slice_row_apply 7 (by omega)]
      rfl
    · rw [if_neg h, dif_neg h]
      refine congrArg v16 (congrArg (fun r => ix2 r q) (Fin.ext ?_))
      show (p.val + 256 - 1) % 256 = p.val - 1
      omega
  · by_cases h : p.val = 255
    · rw [if_pos h, dif_pos h, scalar_select_apply, slice_row_apply 0 (by omega)]
      rfl
    · rw [if_neg h, dif_neg h]
      refine congrArg v16 (congrArg (fun r => ix2 r q) (Fin.ext ?_))
      show (p.val + 256 - 255) % 256 = p.val + 1
      omega

/-- The stored value of grid point `n`, read at row `p`, column `q`, is the 3×3 filter on tile `n`. -/
theorem tile_apply (n : Nat) (hn : n < 16) (xm : Vec Ideal S256x4096 .f32) (xp xn : Vec Ideal S8x4096 .f32)
    (p : Fin 256) (q : Fin 4096) :
    Gen.k0_pay1 (F := Ideal) (Scalar.cmpi .eq (BitVec.ofNat 32 n) 0#32) (Scalar.cmpi .eq (BitVec.ofNat 32 n) 15#32)
        (Gen.k0_pay2 xm) (Gen.k0_pay3 xp) (Gen.k0_pay4 xn) (iota .tc S8x4096 32 [1] Facts₀.iota_S8x4096_d1_w32)
        (Gen.k0_pay5 xn) Gen.k0_pay6 (ValueIdx.ix2 p q)
      = Cert.Pool.blockPool n xm xp xn p q := by
  refine (pay1_apply _ _ _ _ _ _ _ _ p q).trans ?_
  unfold Cert.Pool.blockPool
  refine congrArg₂ max (congrArg₂ max ?_ (pay2_apply xm p q)) ?_
  · by_cases h : p.val = 0
    · rw [dif_pos h, dif_pos h]
      by_cases h0 : n = 0
      · rw [if_pos h0, if_pos ((cmpi_eq_one_iff n 0 (by omega) (by omega)).2 h0)]
      · rw [if_neg h0, if_neg (mt (cmpi_eq_one_iff n 0 (by omega) (by omega)).1 h0)]
        exact pay3_apply xp 7 q
    · rw [dif_neg h, dif_neg h]
      exact pay2_apply xm _ q
  · by_cases h : p.val = 255
    · rw [dif_pos h, dif_pos h]
      by_cases h0 : n = 15
      · rw [if_pos h0, if_pos ((cmpi_eq_one_iff n 15 (by omega) (by omega)).2 h0)]
      · rw [if_neg h0, if_neg (mt (cmpi_eq_one_iff n 15 (by omega) (by omega)).1 h0)]
        exact botRow_apply xn _ 0 q
    · rw [dif_neg h, dif_neg h]
      exact pay2_apply xm _ q

end Cert.KernelIdeal.Payload

end
-- ==== Proof.TilePool.lean ====
/-
  The filter on one tile of 256 rows is the image's filter at the tile's place.

  A row of a block that is a row of the image has, as its horizontal maximum inside the block (`hrow`: −∞ past the
  row's two ends), the image's horizontal maximum in that row (`hmax3`: −∞ outside the grid), because the block's rows are
  whole rows of the image. The vertical maximum then takes the row above the tile's first row from the upper strip, or −∞
  at the first tile where the image has no such row, and likewise below the last row.
-/
import proofs.«124252_j31808527794313_2_alg».proof.Proof.Spec

noncomputable section

namespace Cert.Pool

open Idealize.ShloMosaic Idealize.ShloMosaic.ValueIdx

/-- Inside the grid the image at integer coordinates is the image. -/
theorem at2_in (img : SImg.Idx → EReal) (r c : Nat) (hr : r < 4096) (hc : c < 4096) :
    at2 img (r : Int) (c : Int) = img (ix2 ⟨r, hr⟩ ⟨c, hc⟩) := by
  unfold at2
  rw [dif_pos ⟨by omega, by omega, by omega, by omega⟩]
  exact congrArg img (congrArg₂ (ix2 (n0 := 4096) (n1 := 4096)) (Fin.ext (Int.toNat_natCast r)) (Fin.ext (Int.toNat_natCast c)))

/-- Outside the grid it is −∞. -/
theorem at2_out (img : SImg.Idx → EReal) (r c : Int) (h : ¬(0 ≤ r ∧ r < 4096 ∧ 0 ≤ c ∧ c < 4096)) :
    at2 img r c = ⊥ := dif_neg h

/-- In a row outside the grid the horizontal maximum is −∞. -/
theorem hmax3_out (img : SImg.Idx → EReal) (r c : Int) (h : r < 0 ∨ 4096 ≤ r) : hmax3 img r c = ⊥ := by
  unfold hmax3
  rw [at2_out img r (c - 1) (by omega), at2_out img r c (by omega), at2_out img r (c + 1) (by omega)]
  simp

/-- A block's row `p` that is the image's row `r` has the image's horizontal maxima of row `r`. -/
theorem hrow_eq (img : SImg.Idx → EReal) {R : Nat} (x : (⟨2, ![R, 4096]⟩ : Shape).Idx → EReal) (p : Fin R) (r : Nat)
    (hr : r < 4096) (hx : ∀ q : Fin 4096, x (ix2 p q) = img (ix2 ⟨r, hr⟩ q)) (q : Fin 4096) :
    hrow x p q = hmax3 img (r : Int) ((q.val : Nat) : Int) := by
  have hq : q.val < 4096 := q.isLt
  unfold hrow hmax3
  refine congrArg₂ max (congrArg₂ max ?_ ?_) ?_
  · by_cases h : q.val = 0
    · rw [dif_pos h]
      exact (at2_out img _ _ (by omega)).symm
    · rw [dif_neg h, hx]
      have e : ((q.val : Nat) : Int) - 1 = ((q.val - 1 : Nat) : Int) := by omega
      rw [e, at2_in img r (q.val - 1) hr (by omega)]
  · rw [hx, at2_in img r q.val hr hq]
  · by_cases h : q.val = 4095
    · rw [dif_pos h]
      exact (at2_out img _ _ (by omega)).symm
    · rw [dif_neg h, hx]
      have e : ((q.val : Nat) : Int) + 1 = ((q.val + 1 : Nat) : Int) := by omega
      rw [e, at2_in img r (q.val + 1) hr (by omega)]

/-- The filter on tile `n`, from the tile and the two strips, is the image's filter at rows `256 n … 256 n + 255`, when the tile
    is those rows, the upper strip's last row is row `256 n − 1` (if there is one) and the lower strip's first row is row
    `256 (n + 1)` (if there is one). -/
theorem blockPool_eq (img : SImg.Idx → EReal) (n : Nat) (hn : n < 16) (xm : STile.Idx → EReal) (xp xn : SStrip.Idx → EReal)
    (hm : ∀ (p : Fin 256) (q : Fin 4096), xm (ix2 p q) = img (ix2 ⟨256 * n + p.val, by omega⟩ q))
    (hp : 0 < n → ∀ q : Fin 4096, xp (ix2 (7 : Fin 8) q) = img (ix2 ⟨256 * n - 1, by omega⟩ q))
    (hx : ∀ (hl : n < 15) (q : Fin 4096), xn (ix2 (0 : Fin 8) q) = img (ix2 ⟨256 * (n + 1), by omega⟩ q))
    (p : Fin 256) (q : Fin 4096) :
    blockPool n xm xp xn p q = pool img ((256 * n + p.val : Nat) : Int) ((q.val : Nat) : Int) := by
  have hpl : p.val < 256 := p.isLt
  unfold blockPool pool
  refine congrArg₂ max (congrArg₂ max ?_ ?_) ?_
  · by_cases h : p.val = 0
    · rw [dif_pos h]
      by_cases h0 : n = 0
      · rw [if_pos h0]
        exact (hmax3_out img _ _ (by omega)).symm
      · rw [if_neg h0]
        have e : ((256 * n + p.val : Nat) : Int) - 1 = ((256 * n - 1 : Nat) : Int) := by omega
        rw [e]
        exact hrow_eq img xp 7 (256 * n - 1) (by omega) (hp (by omega)) q
    · rw [dif_neg h]
      have e : ((256 * n + p.val : Nat) : Int) - 1 = ((256 * n + (p.val - 1) : Nat) : Int) := by omega
      rw [e]
      exact hrow_eq img xm ⟨p.val - 1, by omega⟩ (256 * n + (p.val - 1)) (by omega) (fun q' => hm ⟨p.val - 1, by omega⟩ q') q
  · exact hrow_eq img xm p (256 * n + p.val) (by omega) (hm p) q
  · by_cases h : p.val = 255
    · rw [dif_pos h]
      by_cases h0 : n = 15
      · rw [if_pos h0]
        exact (hmax3_out img _ _ (by omega)).symm
      · rw [if_neg h0]
        have e : ((256 * n + p.val : Nat) : Int) + 1 = ((256 * (n + 1) : Nat) : Int) := by omega
        rw [e]
        exact hrow_eq img xn 0 (256 * (n + 1)) (by omega) (hx (by omega)) q
    · rw [dif_neg h]
      have e : ((256 * n + p.val : Nat) : Int) + 1 = ((256 * n + (p.val + 1) : Nat) : Int) := by omega
      rw [e]
      exact hrow_eq img xm ⟨p.val + 1, by omega⟩ (256 * n + (p.val + 1)) (by omega) (fun q' => hm ⟨p.val + 1, by omega⟩ q') q

end Cert.Pool

end
-- ==== Proof.TileCover.lean ====
/-
  From the tiles to the array: after the region the kernel's output array is the image's 3 × 3 maximum filter.

  The region runs sixteen points; point t reads three blocks of ONE image — rows 256 t … 256 t + 255 (the tile), the
  8-row block that ends just above the tile and the 8-row block that begins just below it — and writes rows
  256 t … 256 t + 255 of the output. The steps: where each block's rows lie in the image (the index maps, decided over
  the sixteen points); what a point computes at one position of its tile (the tile's filter, which is the image's filter
  at the tile's place); hence what a point writes back is its block of ONE function of the image; the sixteen blocks
  cover the array (row r lies in block r / 256); so the array ends holding that function.
-/
import proofs.«124252_j31808527794313_2_alg».proof.Proof.DataI
import proofs.«124252_j31808527794313_2_alg».proof.Proof.Payload
import proofs.«124252_j31808527794313_2_alg».proof.Proof.TilePool
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-- The zero offsets of a whole-block rectangle. -/
theorem zeroOffsets : (![0, 0] : Fin 2 → Nat) = fun _ => 0 := funext fun a => by fin_cases a <;> rfl

/-- The printed index maps over the sixteen grid points: the tile and the output tile are block t of 256 rows; the strip
    above is the 8-row block 32 t − 1 (block 0 at the first point) and the strip below the 8-row block 32 (t + 1) (block 511 at
    the last point); every block spans all columns; the grid coordinate is the point. -/
theorem index_facts : ∀ t : Fin cfg0.N,
    win0_0.index t (0 : Fin 2) = t.val ∧ win0_0.index t (1 : Fin 2) = 0
    ∧ win0_1.index t (0 : Fin 2) = 32 * t.val - 1 ∧ win0_1.index t (1 : Fin 2) = 0
    ∧ win0_2.index t (0 : Fin 2) = min (32 * (t.val + 1)) 511 ∧ win0_2.index t (1 : Fin 2) = 0
    ∧ win0_3.index t (0 : Fin 2) = t.val ∧ win0_3.index t (1 : Fin 2) = 0
    ∧ (grid0.coords t 0).val = t.val :=
  (by decide +kernel : ∀ t : Fin grid0.N, _)

/-- The output tile at an index: the tile's filter of the three loaded blocks, at tile number n = the grid coordinate. -/
theorem tileOut_apply (i : grid0.Coords) (n : Nat) (hn : n < 16) (hi : (i 0).val = n)
    (x0 : Vec Ideal S256x4096 .f32) (x1 x2 : Vec Ideal S8x4096 .f32) (p : Fin 256) (q : Fin 4096) :
    tileOut (F := Ideal) i x0 x1 x2 (ix2 p q) = Cert.Pool.blockPool n x0 x1 x2 p q := by
  unfold tileOut
  rw [View.canon_unit_zero zeroOffsets]
  simp only [View.ld_unit_zero (S := S256x4096) zeroOffsets, View.ld_unit_zero (S := S8x4096) zeroOffsets]
  subst hi
  exact Cert.KernelIdeal.Payload.tile_apply _ hn x0 x1 x2 p q

/-- The tile's block at point t is rows 256 t … 256 t + 255 of the image. -/
theorem tile_block_apply (t : Fin cfg0.N) (p : Fin 256) (q : Fin 4096) (k : S4096x4096.Idx)
    (hk0 : (k 0).val = 256 * t.val + p.val) (hk1 : (k 1).val = q.val) :
    (iblk m c 0 t : Vec Ideal S256x4096 .f32) (ix2 p q) = (V m c main_v25 : S4096x4096.Idx → Elt Ideal .f32) k := by
  obtain ⟨e0, e1, -⟩ := index_facts t
  unfold iblk
  rw [View.read_apply]
  show V m c main_v25 _ = V m c main_v25 _
  refine congrArg (V m c main_v25) ?_
  funext a
  apply Fin.ext
  match a with
  | ⟨0, _⟩ => show win0_0.index t (0 : Fin 2) * 256 + 1 * p.val = (k 0).val; rw [e0, hk0]; omega
  | ⟨1, _⟩ => show win0_0.index t (1 : Fin 2) * 4096 + 1 * q.val = (k 1).val; rw [e1, hk1]; omega

/-- The strip above at point t: its rows are rows 8 (32 t − 1) … of the image (rows 0 … 7 at the first point). -/
theorem upper_block_apply (t : Fin cfg0.N) (p : Fin 8) (q : Fin 4096) (k : S4096x4096.Idx)
    (hk0 : (k 0).val = (32 * t.val - 1) * 8 + p.val) (hk1 : (k 1).val = q.val) :
    (iblk m c 1 t : Vec Ideal S8x4096 .f32) (ix2 p q) = (V m c main_v25 : S4096x4096.Idx → Elt Ideal .f32) k := by
  obtain ⟨-, -, e0, e1, -⟩ := index_facts t
  unfold iblk
  rw [View.read_apply]
  show V m c main_v25 _ = V m c main_v25 _
  refine congrArg (V m c main_v25) ?_
  funext a
  apply Fin.ext
  match a with
  | ⟨0, _⟩ => show win0_1.index t (0 : Fin 2) * 8 + 1 * p.val = (k 0).val; rw [e0, hk0]; omega
  | ⟨1, _⟩ => show win0_1.index t (1 : Fin 2) * 4096 + 1 * q.val = (k 1).val; rw [e1, hk1]; omega

/-- The strip below at point t: its rows are rows 8 min (32 (t + 1)) 511 … of the image. -/
theorem lower_block_apply (t : Fin cfg0.N) (p : Fin 8) (q : Fin 4096) (k : S4096x4096.Idx)
    (hk0 : (k 0).val = min (32 * (t.val + 1)) 511 * 8 + p.val) (hk1 : (k 1).val = q.val) :
    (iblk m c 2 t : Vec Ideal S8x4096 .f32) (ix2 p q) = (V m c main_v25 : S4096x4096.Idx → Elt Ideal .f32) k := by
  obtain ⟨-, -, -, -, e0, e1, -⟩ := index_facts t
  unfold iblk
  rw [View.read_apply]
  show V m c main_v25 _ = V m c main_v25 _
  refine congrArg (V m c main_v25) ?_
  funext a
  apply Fin.ext
  match a with
  | ⟨0, _⟩ => show win0_2.index t (0 : Fin 2) * 8 + 1 * p.val = (k 0).val; rw [e0, hk0]; omega
  | ⟨1, _⟩ => show win0_2.index t (1 : Fin 2) * 4096 + 1 * q.val = (k 1).val; rw [e1, hk1]; omega

/-- The image the region finds, as a function on the 4096 × 4096 grid. -/
abbrev image : Cert.Pool.SImg.Idx → EReal := (V m c main_v25 : S4096x4096.Idx → Elt Ideal .f32)

/-- What point t computes at row p and column q of its tile: the image's 3 × 3 maximum at row 256 t + p. -/
theorem tile_point (t : Fin cfg0.N) (p : Fin 256) (q : Fin 4096) :
    tileOut (F := Ideal) (grid0.coords t) (iblk m c 0 t) (iblk m c 1 t) (iblk m c 2 t) (ix2 p q)
      = Cert.Pool.pool (image m c) ((256 * t.val + p.val : Nat) : Int) ((q.val : Nat) : Int) := by
  have hN : t.val < 16 := lt_of_lt_of_eq t.isLt N_0
  obtain ⟨-, -, -, -, -, -, -, -, eg⟩ := index_facts t
  rw [tileOut_apply (grid0.coords t) t.val hN eg]
  refine Cert.Pool.blockPool_eq (image m c) t.val hN _ _ _ ?_ ?_ ?_ p q
  · intro p' q'
    exact tile_block_apply m c t p' q' _ rfl rfl
  · intro h0 q'
    exact upper_block_apply m c t 7 q' _ (by show 256 * t.val - 1 = (32 * t.val - 1) * 8 + 7; omega) rfl
  · intro hl q'
    exact lower_block_apply m c t 0 q' _ (by show 256 * (t.val + 1) = min (32 * (t.val + 1)) 511 * 8 + 0; omega) rfl

/-- The 3 × 3 maximum filter of the image the region finds, as an array. -/
abbrev pooled : S4096x4096.Idx → Elt Ideal .f32 :=
  fun j => Cert.Pool.pool (image m c) ((j 0).val : Int) ((j 1).val : Int)

/-- The output window's block is the whole staging buffer: a position of the block is the same position of the tile. -/
theorem cut_tile_apply {α : Type} (t : Fin cfg0.N) (X : S256x4096.Idx → α) (j : ((cfg0.win 3).xblock (grid0.coords t)).Idx) :
    (cfg0.win 3).cut (grid0.coords t) X j = X (ix2 ⟨(j 0).val, (j 0).isLt⟩ ⟨(j 1).val, (j 1).isLt⟩) := by
  show X _ = X _
  refine congrArg X ?_
  funext a
  match a with
  | ⟨0, _⟩ => rfl
  | ⟨1, _⟩ => rfl

/-- Where a position of point t's output block lies in the array: row 256 t + its row, the same column. -/
theorem out_block_emb (t : Fin cfg0.N) (j : ((cfg0.win 3).xblock (grid0.coords t)).Idx) :
    ((((cfg0.win 3).blk t).view.emb j) 0).val = 256 * t.val + (j 0).val
    ∧ ((((cfg0.win 3).blk t).view.emb j) 1).val = (j 1).val := by
  obtain ⟨-, -, -, -, -, -, e0, e1, -⟩ := index_facts t
  constructor
  · show win0_3.index t (0 : Fin 2) * 256 + 1 * (j 0).val = _; rw [e0]; omega
  · show win0_3.index t (1 : Fin 2) * 4096 + 1 * (j 1).val = _; rw [e1]; omega

/-- What point t writes back is block t of the filtered image. -/
theorem flushed_tile (t : Fin cfg0.N) :
    (dats (F := Ideal) m 0 c).flushed 3 t = ((cfg0.win 3).blk t).view.read (Elt Ideal) (pooled m c) := by
  show (cfg0.win 3).cut (grid0.coords t) ((dats m 0 c).after 3 t) = _
  rw [after3]
  funext j
  rw [cut_tile_apply, View.read_apply, tile_point]
  obtain ⟨r0, r1⟩ := out_block_emb t j
  show _ = Cert.Pool.pool (image m c) (((((cfg0.win 3).blk t).view.emb j) 0).val : Int) (((((cfg0.win 3).blk t).view.emb j) 1).val : Int)
  rw [r0, r1]

/-- An index of the array is in point t's output block iff each coordinate is in the block's range on its axis. -/
theorem mem_out_block (t : Fin cfg0.N) (i : S4096x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v26).slice (win0_3.rect t)).set ↔ _
  rw [View.set_slice_whole, Rect.mem_set_unit]
  exact Iff.rfl

/-- The sixteen output blocks cover the array: row r lies in the block of point r / 256. -/
theorem covered (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ : ∃ t : Fin cfg0.N, t.val = (i 0).val / 256 :=
    ⟨⟨(i 0).val / 256, by rw [show cfg0.N = 16 from N_0]; omega⟩, rfl⟩
  obtain ⟨-, -, -, -, -, -, e0, e1, -⟩ := index_facts t
  refine ⟨t, flush0_3 t, ?_⟩
  rw [mem_out_block]
  intro a
  match a with
  | ⟨0, _⟩ =>
    show win0_3.index t (0 : Fin 2) * 256 ≤ (i 0).val ∧ (i 0).val < win0_3.index t (0 : Fin 2) * 256 + 256
    rw [e0, ht]; omega
  | ⟨1, _⟩ =>
    show win0_3.index t (1 : Fin 2) * 4096 ≤ (i 1).val ∧ (i 1).val < win0_3.index t (1 : Fin 2) * 4096 + 4096
    rw [e1]; omega

/-- THE OUTPUT ARRAY after the region: the 3 × 3 maximum filter of the image the region finds. -/
theorem final_tile : (dats (F := Ideal) m 0 c).arrAt 3 cfg0.N = pooled m c :=
  (dats m 0 c).arrAt_eq_of_cover 3 (pooled m c) (fun t _ => flushed_tile m c t) (covered)

end Cert.KernelIdeal.Hand
end
-- ==== Proof.ResultLayout.lean ====
/-
  The region's output, given its two leading unit axes, is the filtered image of the specification.

  A broadcast that places a 4096 × 4096 array on axes 2 and 3 of a 1 × 1 × 4096 × 4096 array reads, at each index,
  the operand at that index's last two coordinates; the specification's `G` is by definition the filter at those two
  coordinates.
-/
import proofs.«124252_j31808527794313_2_alg».proof.KernelIdeal
import proofs.«124252_j31808527794313_2_alg».proof.Proof.Spec
import Idealize.ShloMosaic.Lib.ValueIdx
import Idealize.ShloMosaic.Lib.Pipeline.Value

noncomputable section

namespace Cert.KernelIdeal.ResultLayout

open Idealize.ShloMosaic Idealize.ShloMosaic.ValueIdx

/-- The filter of the image, broadcast to the result's shape, is `G`. -/
theorem bcast_pool (img : Cert.KernelIdeal.S4096x4096.Idx → EReal)
    (h : Cert.KernelIdeal.S4096x4096.BroadcastsInDim Cert.KernelIdeal.S1x1x4096x4096
      (![2, 3] : Fin 2 → Fin Cert.KernelIdeal.S1x1x4096x4096.rank)) :
    broadcastInDim Cert.KernelIdeal.S1x1x4096x4096 ![2, 3] h
        (fun j : Cert.KernelIdeal.S4096x4096.Idx => Cert.Pool.pool img ((j 0).val : Int) ((j 1).val : Int))
      = Cert.Pool.G img := by
  funext i
  -- the operand's index under `i`: the coordinates of `i` on axes 2 and 3 (neither operand axis has extent one)
  have hk : ∀ a : Fin 2, ((ix2 (⟨(i 2).val, (i 2).isLt⟩ : Fin 4096) (⟨(i 3).val, (i 3).isLt⟩ : Fin 4096) : Cert.KernelIdeal.S4096x4096.Idx) a).val
      = if Cert.KernelIdeal.S4096x4096.size a = 1 then 0 else (i ((![2, 3] : Fin 2 → Fin Cert.KernelIdeal.S1x1x4096x4096.rank) a)).val := by
    intro a
    match a with
    | ⟨0, _⟩ => rfl
    | ⟨1, _⟩ => rfl
  exact (broadcastInDim_apply (s := Cert.KernelIdeal.S4096x4096) (t := Cert.KernelIdeal.S1x1x4096x4096) (α := EReal)
    (![2, 3] : Fin 2 → Fin Cert.KernelIdeal.S1x1x4096x4096.rank) h
    (fun j : Cert.KernelIdeal.S4096x4096.Idx => Cert.Pool.pool img ((j 0).val : Int) ((j 1).val : Int)) i
    (ix2 (⟨(i 2).val, (i 2).isLt⟩ : Fin 4096) (⟨(i 3).val, (i 3).isLt⟩ : Fin 4096)) hk)

end Cert.KernelIdeal.ResultLayout

end
-- ==== Proof.ValueI.lean ====
/-
  The kernel's result, at the ideal instance, is the specification of its own image.

  The final memory holds at the result buffer the region's output array with two leading unit axes. The output array
  is, index by index, the 3×3 maximum of the array the region read (every tile's block is that maximum on the tile's
  rows, and the tiles cover the array), and the array the region read is the scatter's image of the argument. So the
  result is `G` of that image; the argument is unchanged.
-/
import proofs.«124252_j31808527794313_2_alg».proof.Proof.FinalI
import proofs.«124252_j31808527794313_2_alg».proof.Proof.TileCover
import proofs.«124252_j31808527794313_2_alg».proof.Proof.ResultLayout

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- The result at the end is the filtered image of the argument. -/
theorem result_eq (c : Dev nD) :
    V₃ m c (Proc.devRef .tc main_v27)
      = Cert.Pool.G (Cert.KernelIdeal.Img.scatterImg (F := Ideal) (m ((c : Thread nD τ).loc main_arg0))) := by
  have himg : image m c = Cert.KernelIdeal.Img.scatterImg (F := Ideal) (m ((c : Thread nD τ).loc main_arg0)) := V_image m c
  calc V₃ m c (Proc.devRef .tc main_v27)
      = broadcastInDim S1x1x4096x4096 ![2, 3] bcast_S4096x4096_S1x1x4096x4096_2_3 (pooled m c) := by
        rw [V₃_result, final_tile]
    _ = Cert.Pool.G (image m c) := Cert.KernelIdeal.ResultLayout.bcast_pool (image m c) _
    _ = _ := by rw [himg]

/-- Every weakly fair execution of the idealized kernel program terminates with the result at the filtered image of the
    argument and the argument unchanged. -/
theorem value_run : θ_run defs (onTc (τ := τ) (main (F := Ideal))) ⟨m, fun _ => 0, ρ⟩ (fun r => ∀ c : Dev nD,
    r.2.mem ((c.tc : Thread nD τ).loc main_v27)
        = Cert.Pool.G (Cert.KernelIdeal.Img.scatterImg (F := Ideal) (m ((c.tc : Thread nD τ).loc main_arg0)))
      ∧ r.2.mem ((c.tc : Thread nD τ).loc main_arg0) = m ((c.tc : Thread nD τ).loc main_arg0)) :=
  (θ_run defs _ _).mono (fun _ h c => ⟨(h c main_v27 result_mem).trans (result_eq m c), (h c main_arg0 arg0_mem).trans (V₃_arg0 m c)⟩)
    (run_main m ρ)

end Cert.KernelIdeal.Hand

end
-- ==== Proof.ScatterBridge.lean ====
/-
  Two scatters build one image. The kernel scatters ones into a 4096 × 4096 zero image at the index pairs (a k, b k);
  the reference scatters ones into a 1 × 1 × 4096 × 4096 zero image at the index quadruples (0, 0, a k, b k). Both are
  left folds over the same 20000 updates in the same order, so it is enough that each step keeps the relation "the
  second image at (0, 0, r, c) is the first at (r, c)": an update lands at (r, c) in the first image exactly when it
  lands at (0, 0, r, c) in the second, and is dropped by both or by neither. That comes down to the index arithmetic
  of a scatter whose every operand axis is inserted (start plus window coordinate, the window coordinate 0) and to
  reading the two concatenations of one-column pieces at an index.
-/
import proofs.«124252_j31808527794313_2_alg».proof.Proof.KernelImage
import proofs.«124252_j31808527794313_2_alg».proof.Proof.Gen.KernelIdeal
import proofs.«124252_j31808527794313_2_alg».proof.Proof.Gen.ReferenceIdeal.Read
import Idealize.ShloMosaic.Lib.Pipeline.Value
import Idealize.ShloMosaic.Lib.ValueIdx

noncomputable section

namespace Cert.ScatterBridge

open Idealize.ShloMosaic Idealize.ShloMosaic.ValueIdx

/-! ## Folds -/

/-- Two left folds over one list whose steps preserve a relation preserve it from the initial values to the results. -/
theorem foldl_rel {A B J : Type} (R : A → B → Prop) (f : A → J → A) (g : B → J → B)
    (h : ∀ a b n, R a b → R (f a n) (g b n)) : ∀ (l : List J) (a : A) (b : B), R a b → R (l.foldl f a) (l.foldl g b)
  | [], _, _, hab => hab
  | n :: l, a, b, hab => foldl_rel R f g h l _ _ (h a b n hab)

/-! ## The scatter's index arithmetic, for any dimension numbers -/

section Generic
variable {s si u : Shape} (d : ScatterDims s si u) {w : Nat}

/-- An update lands at `i` exactly when, on every axis, its start plus its window coordinate is `i`'s coordinate. -/
theorem resultIdx?_eq_some_iff (j : u.Idx) (idx : IVec si w) (i : s.Idx) :
    d.resultIdx? j idx = some i ↔ ∀ a, d.start j idx a + (d.window j a : Int) = ((i a).val : Int) := by
  unfold ScatterDims.resultIdx?
  split
  · next h =>
    constructor
    · intro e a
      have e' := Option.some.inj e
      subst e'
      have := (h a).1
      show _ = (((d.start j idx a + (d.window j a : Int)).toNat : Nat) : Int)
      omega
    · intro e
      congr 1
      funext a
      apply Fin.ext
      show (d.start j idx a + (d.window j a : Int)).toNat = (i a).val
      have := e a
      omega
  · next h =>
    constructor
    · intro e; cases e
    · intro e
      exact absurd (fun a => ⟨by have := e a; omega, by have := e a; have := (i a).isLt; omega⟩) h

/-- On an inserted axis the window coordinate is 0. -/
theorem window_eq_zero (j : u.Idx) (a : Fin s.rank) (ha : a ∈ d.insertedWindowDims) : d.window j a = 0 := by
  unfold ScatterDims.window
  rw [dif_neg]
  intro hk
  have := (List.mem_filter.1 hk).2
  simp [ha] at this

/-- The start on the operand axis the map names in position `k` is component `k` of the start index. -/
theorem start_eq_of_getElem (j : u.Idx) (idx : IVec si w) (a : Fin s.rank) (k : Nat)
    (hk : k < d.scatterDimsToOperandDims.length) (hka : d.scatterDimsToOperandDims[k] = a) :
    d.start j idx a = (idx (d.siIdx j ⟨k, hk⟩)).toInt := by
  have ha : a ∈ d.scatterDimsToOperandDims := hka ▸ List.getElem_mem hk
  unfold ScatterDims.start
  rw [dif_pos ha]
  have hn : d.scatterDimsToOperandDims.Nodup := d.wf.2.2.1
  have : d.scatterDimsToOperandDims.idxOf a = k := by subst hka; exact hn.idxOf_getElem k hk
  congr 3
  exact Fin.ext this

/-- The start index is read with its component number on the index vector's axis … -/
theorem siIdx_val_of_eq (j : u.Idx) (c : Fin d.scatterDimsToOperandDims.length) (b : Fin si.rank)
    (hb : b.val = d.indexVectorDim) : (d.siIdx j c b).val = c.val := by
  simp only [ScatterDims.siIdx, dif_pos hb]

/-- … and with one of the update index's coordinates on every other axis. -/
theorem siIdx_val_of_ne (j : u.Idx) (c : Fin d.scatterDimsToOperandDims.length) (b : Fin si.rank)
    (hb : b.val ≠ d.indexVectorDim) : ∃ x : Fin u.rank, (d.siIdx j c b).val = (j x).val := by
  simp only [ScatterDims.siIdx, dif_neg hb, ScatterDims.siCoord]
  exact ⟨_, rfl⟩

end Generic

/-- A rank-1 index has one coordinate. -/
theorem idx1_val {n : Nat} (j : (⟨1, ![n]⟩ : Shape).Idx) (x : Fin 1) : (j x).val = (j 0).val := by
  have : x = 0 := Fin.ext (by have : x.val < 1 := x.isLt; show x.val = 0; omega)
  rw [this]

/-! ## The kernel's index pairs read at an index -/

section Kernel
open Cert.KernelIdeal Cert.KernelIdeal.Facts₀ Cert.KernelIdeal.Img

/-- A vector laid out as a column reads the vector at the row. -/
theorem kcol_apply (a : IVec S20000 32) (i : S20000x1.Idx) (k : S20000.Idx) (hk : (k 0).val = (i 0).val) :
    broadcastInDim S20000x1 ![0] bcast_S20000_S20000x1_0 a i = a k :=
  broadcastInDim_apply _ bcast_S20000_S20000x1_0 a i k (fun b => match b with
    | ⟨0, _⟩ => by show (k 0).val = if (20000 : Nat) = 1 then 0 else (i 0).val; rw [if_neg (by decide)]; exact hk)

/-- The pairs' first column is the row indices. -/
theorem pairs_apply_zero (a b : IVec S20000 32) (i : S20000x2.Idx) (h : (i 1).val = 0) (k : S20000.Idx)
    (hk : (k 0).val = (i 0).val) : pairs a b i = a k := by
  unfold pairs
  exact (concatenate_apply_piece (t := S20000x2) 1
    [⟨S20000x1, broadcastInDim S20000x1 ![0] bcast_S20000_S20000x1_0 a⟩,
      ⟨S20000x1, broadcastInDim S20000x1 ![0] bcast_S20000_S20000x1_0 b⟩]
    concatenates_S20000x1_S20000x1_S20000x2_d1 i 0 (by simp) S20000x1 _ rfl rfl 0 rfl
    (ix2 (n0 := 20000) (n1 := 1) (i 0) 0) (fun b hb => match b, hb with | ⟨0, _⟩, _ => rfl | ⟨1, _⟩, hb => absurd rfl hb)
    (by show 0 + 0 = (i 1).val; omega)).trans (kcol_apply a _ k hk)

/-- The pairs' second column is the column indices. -/
theorem pairs_apply_one (a b : IVec S20000 32) (i : S20000x2.Idx) (h : (i 1).val = 1) (k : S20000.Idx)
    (hk : (k 0).val = (i 0).val) : pairs a b i = b k := by
  unfold pairs
  exact (concatenate_apply_piece (t := S20000x2) 1
    [⟨S20000x1, broadcastInDim S20000x1 ![0] bcast_S20000_S20000x1_0 a⟩,
      ⟨S20000x1, broadcastInDim S20000x1 ![0] bcast_S20000_S20000x1_0 b⟩]
    concatenates_S20000x1_S20000x1_S20000x2_d1 i 1 (by simp) S20000x1 _ rfl rfl 1 rfl
    (ix2 (n0 := 20000) (n1 := 1) (i 0) 0) (fun b hb => match b, hb with | ⟨0, _⟩, _ => rfl | ⟨1, _⟩, hb => absurd rfl hb)
    (by show 1 + 0 = (i 1).val; omega)).trans (kcol_apply b _ k hk)

end Kernel

/-! ## The kernel scatter's positions -/

section KernelScatter
open Cert.KernelIdeal Cert.KernelIdeal.Facts₀ Cert.KernelIdeal.Img

theorem kstart_zero (a b : IVec S20000 32) (j : S20000.Idx) :
    scatter_S4096x4096_S20000x2_S20000_n_01_01_1.start j (pairs a b) 0 = (a j).toInt := by
  rw [start_eq_of_getElem scatter_S4096x4096_S20000x2_S20000_n_01_01_1 j (pairs a b) 0 0 (by decide) rfl]
  refine congrArg BitVec.toInt ?_
  refine pairs_apply_zero a b _ (siIdx_val_of_eq _ j _ 1 rfl) j ?_
  obtain ⟨x, hx⟩ := siIdx_val_of_ne scatter_S4096x4096_S20000x2_S20000_n_01_01_1 j ⟨0, by decide⟩ 0 (by decide)
  rw [hx]; exact (idx1_val j x).symm

theorem kstart_one (a b : IVec S20000 32) (j : S20000.Idx) :
    scatter_S4096x4096_S20000x2_S20000_n_01_01_1.start j (pairs a b) 1 = (b j).toInt := by
  rw [start_eq_of_getElem scatter_S4096x4096_S20000x2_S20000_n_01_01_1 j (pairs a b) 1 1 (by decide) rfl]
  refine congrArg BitVec.toInt ?_
  refine pairs_apply_one a b _ (siIdx_val_of_eq _ j _ 1 rfl) j ?_
  obtain ⟨x, hx⟩ := siIdx_val_of_ne scatter_S4096x4096_S20000x2_S20000_n_01_01_1 j ⟨1, by decide⟩ 0 (by decide)
  rw [hx]; exact (idx1_val j x).symm

theorem kwindow (j : S20000.Idx) (a : Fin 2) : scatter_S4096x4096_S20000x2_S20000_n_01_01_1.window j a = 0 :=
  window_eq_zero scatter_S4096x4096_S20000x2_S20000_n_01_01_1 j a (by show a ∈ ([0, 1] : List (Fin 2)); revert a; decide)

/-- The kernel's update `j` lands at `i` exactly when `i`'s coordinates are the row and the column index, read signed. -/
theorem kpos_iff (a b : IVec S20000 32) (j : S20000.Idx) (i : S4096x4096.Idx) :
    scatter_S4096x4096_S20000x2_S20000_n_01_01_1.resultIdx? j (pairs a b) = some i
      ↔ (a j).toInt = ((i 0).val : Int) ∧ (b j).toInt = ((i 1).val : Int) := by
  rw [resultIdx?_eq_some_iff]
  constructor
  · intro h
    have h0 := h 0
    have h1 := h 1
    rw [kstart_zero, kwindow] at h0
    rw [kstart_one, kwindow] at h1
    exact ⟨by simpa using h0, by simpa using h1⟩
  · rintro ⟨h0, h1⟩ x
    match x with
    | ⟨0, _⟩ => show scatter_S4096x4096_S20000x2_S20000_n_01_01_1.start j (pairs a b) 0 + _ = _; rw [kstart_zero, kwindow]; simpa using h0
    | ⟨1, _⟩ => show scatter_S4096x4096_S20000x2_S20000_n_01_01_1.start j (pairs a b) 1 + _ = _; rw [kstart_one, kwindow]; simpa using h1

end KernelScatter

/-! ## The reference's index quadruples read at an index -/

section Reference
open Cert.ReferenceIdeal Cert.ReferenceIdeal.Facts₀ Cert.ReferenceIdeal.Read

variable {F : FTy → Type} [FloatOps F]

/-- A vector laid out as a column reads the vector at the row. -/
theorem rcol_apply (a : IVec S20000 32) (i : S20000x1.Idx) (k : S20000.Idx) (hk : (k 0).val = (i 0).val) :
    broadcastInDim S20000x1 ![0] bcast_S20000_S20000x1_0 a i = a k :=
  broadcastInDim_apply _ bcast_S20000_S20000x1_0 a i k (fun b => match b with
    | ⟨0, _⟩ => by show (k 0).val = if (20000 : Nat) = 1 then 0 else (i 0).val; rw [if_neg (by decide)]; exact hk)

/-- The row of a four-column index seen as an index of one column. -/
abbrev rowOf (i : S20000x4.Idx) : S20000x1.Idx := ix2 (n0 := 20000) (n1 := 1) (i 0) 0

theorem rowOf_off (i : S20000x4.Idx) : ∀ b : Fin S20000x1.rank, b.cast (rfl : S20000x1.rank = S20000x4.rank) ≠ 1 →
    (rowOf i b).val = (i (b.cast (rfl : S20000x1.rank = S20000x4.rank))).val :=
  fun b hb => match b, hb with | ⟨0, _⟩, _ => rfl | ⟨1, _⟩, hb => absurd rfl hb

/-- The quadruples' first column is zero. -/
theorem quads_apply_zero (x0 : FVec F S20000x2 .f32) (i : S20000x4.Idx) (h : (i 1).val = 0) :
    val_main_v29 (F := F) x0 i = 0#32 := by
  unfold val_main_v29
  refine (concatenate_apply_piece (t := S20000x4) 1
    [⟨S20000x1, (val_main_v25 (F := F))⟩, ⟨S20000x1, (val_main_v26 (F := F))⟩, ⟨S20000x1, (val_main_v27 (F := F) x0)⟩,
      ⟨S20000x1, (val_main_v28 (F := F) x0)⟩]
    concatenates_S20000x1_S20000x1_S20000x1_S20000x1_S20000x4_d1 i 0 (by simp) S20000x1 _ rfl rfl 0 rfl
    (rowOf i) (rowOf_off i) (by show 0 + 0 = (i 1).val; omega)).trans ?_
  rw [val_main_v25_apply, val_main_v23_apply, val_main_v21_apply, val_main_c_5_apply]

/-- The quadruples' second column is zero. -/
theorem quads_apply_one (x0 : FVec F S20000x2 .f32) (i : S20000x4.Idx) (h : (i 1).val = 1) :
    val_main_v29 (F := F) x0 i = 0#32 := by
  unfold val_main_v29
  refine (concatenate_apply_piece (t := S20000x4) 1
    [⟨S20000x1, (val_main_v25 (F := F))⟩, ⟨S20000x1, (val_main_v26 (F := F))⟩, ⟨S20000x1, (val_main_v27 (F := F) x0)⟩,
      ⟨S20000x1, (val_main_v28 (F := F) x0)⟩]
    concatenates_S20000x1_S20000x1_S20000x1_S20000x1_S20000x4_d1 i 1 (by simp) S20000x1 _ rfl rfl 1 rfl
    (rowOf i) (rowOf_off i) (by show 1 + 0 = (i 1).val; omega)).trans ?_
  rw [val_main_v26_apply, val_main_v24_apply, val_main_v22_apply, val_main_c_6_apply]

/-- The quadruples' third column is the row indices. -/
theorem quads_apply_two (x0 : FVec F S20000x2 .f32) (i : S20000x4.Idx) (h : (i 1).val = 2) (k : S20000.Idx)
    (hk : (k 0).val = (i 0).val) : val_main_v29 (F := F) x0 i = val_main_v15 (F := F) x0 k := by
  unfold val_main_v29
  refine (concatenate_apply_piece (t := S20000x4) 1
    [⟨S20000x1, (val_main_v25 (F := F))⟩, ⟨S20000x1, (val_main_v26 (F := F))⟩, ⟨S20000x1, (val_main_v27 (F := F) x0)⟩,
      ⟨S20000x1, (val_main_v28 (F := F) x0)⟩]
    concatenates_S20000x1_S20000x1_S20000x1_S20000x1_S20000x4_d1 i 2 (by simp) S20000x1 _ rfl rfl 2 rfl
    (rowOf i) (rowOf_off i) (by show 2 + 0 = (i 1).val; omega)).trans ?_
  unfold val_main_v27
  exact rcol_apply _ _ k hk

/-- The quadruples' fourth column is the column indices. -/
theorem quads_apply_three (x0 : FVec F S20000x2 .f32) (i : S20000x4.Idx) (h : (i 1).val = 3) (k : S20000.Idx)
    (hk : (k 0).val = (i 0).val) : val_main_v29 (F := F) x0 i = val_main_v20 (F := F) x0 k := by
  unfold val_main_v29
  refine (concatenate_apply_piece (t := S20000x4) 1
    [⟨S20000x1, (val_main_v25 (F := F))⟩, ⟨S20000x1, (val_main_v26 (F := F))⟩, ⟨S20000x1, (val_main_v27 (F := F) x0)⟩,
      ⟨S20000x1, (val_main_v28 (F := F) x0)⟩]
    concatenates_S20000x1_S20000x1_S20000x1_S20000x1_S20000x4_d1 i 3 (by simp) S20000x1 _ rfl rfl 3 rfl
    (rowOf i) (rowOf_off i) (by show 3 + 0 = (i 1).val; omega)).trans ?_
  unfold val_main_v28
  exact rcol_apply _ _ k hk

end Reference

/-! ## The reference scatter's positions -/

section ReferenceScatter
open Cert.ReferenceIdeal Cert.ReferenceIdeal.Facts₀ Cert.ReferenceIdeal.Read

variable {F : FTy → Type} [FloatOps F]

theorem rstart_zero (x0 : FVec F S20000x2 .f32) (j : S20000.Idx) :
    scatter_S1x1x4096x4096_S20000x4_S20000_n_0123_0123_1.start j (val_main_v29 (F := F) x0) 0 = 0 := by
  rw [start_eq_of_getElem scatter_S1x1x4096x4096_S20000x4_S20000_n_0123_0123_1 j (val_main_v29 (F := F) x0) 0 0 (by decide) rfl,
    quads_apply_zero x0 _ (siIdx_val_of_eq _ j _ 1 rfl)]
  rfl

theorem rstart_one (x0 : FVec F S20000x2 .f32) (j : S20000.Idx) :
    scatter_S1x1x4096x4096_S20000x4_S20000_n_0123_0123_1.start j (val_main_v29 (F := F) x0) 1 = 0 := by
  rw [start_eq_of_getElem scatter_S1x1x4096x4096_S20000x4_S20000_n_0123_0123_1 j (val_main_v29 (F := F) x0) 1 1 (by decide) rfl,
    quads_apply_one x0 _ (siIdx_val_of_eq _ j _ 1 rfl)]
  rfl

theorem rstart_two (x0 : FVec F S20000x2 .f32) (j : S20000.Idx) :
    scatter_S1x1x4096x4096_S20000x4_S20000_n_0123_0123_1.start j (val_main_v29 (F := F) x0) 2
      = (val_main_v15 (F := F) x0 j).toInt := by
  rw [start_eq_of_getElem scatter_S1x1x4096x4096_S20000x4_S20000_n_0123_0123_1 j (val_main_v29 (F := F) x0) 2 2 (by decide) rfl]
  refine congrArg BitVec.toInt ?_
  refine quads_apply_two x0 _ (siIdx_val_of_eq _ j _ 1 rfl) j ?_
  obtain ⟨x, hx⟩ := siIdx_val_of_ne scatter_S1x1x4096x4096_S20000x4_S20000_n_0123_0123_1 j ⟨2, by decide⟩ 0 (by decide)
  rw [hx]; exact (idx1_val j x).symm

theorem rstart_three (x0 : FVec F S20000x2 .f32) (j : S20000.Idx) :
    scatter_S1x1x4096x4096_S20000x4_S20000_n_0123_0123_1.start j (val_main_v29 (F := F) x0) 3
      = (val_main_v20 (F := F) x0 j).toInt := by
  rw [start_eq_of_getElem scatter_S1x1x4096x4096_S20000x4_S20000_n_0123_0123_1 j (val_main_v29 (F := F) x0) 3 3 (by decide) rfl]
  refine congrArg BitVec.toInt ?_
  refine quads_apply_three x0 _ (siIdx_val_of_eq _ j _ 1 rfl) j ?_
  obtain ⟨x, hx⟩ := siIdx_val_of_ne scatter_S1x1x4096x4096_S20000x4_S20000_n_0123_0123_1 j ⟨3, by decide⟩ 0 (by decide)
  rw [hx]; exact (idx1_val j x).symm

theorem rwindow (j : S20000.Idx) (a : Fin 4) : scatter_S1x1x4096x4096_S20000x4_S20000_n_0123_0123_1.window j a = 0 :=
  window_eq_zero scatter_S1x1x4096x4096_S20000x4_S20000_n_0123_0123_1 j a
    (by show a ∈ ([0, 1, 2, 3] : List (Fin 4)); revert a; decide)

/-- The reference's update `j` lands at `i` exactly when `i`'s last two coordinates are the row and the column index,
    read signed: its first two coordinates are 0 on axes of extent 1, as the first two components of the start are. -/
theorem rpos_iff (x0 : FVec F S20000x2 .f32) (j : S20000.Idx) (i : S1x1x4096x4096.Idx) :
    scatter_S1x1x4096x4096_S20000x4_S20000_n_0123_0123_1.resultIdx? j (val_main_v29 (F := F) x0) = some i
      ↔ (val_main_v15 (F := F) x0 j).toInt = ((i 2).val : Int) ∧ (val_main_v20 (F := F) x0 j).toInt = ((i 3).val : Int) := by
  rw [resultIdx?_eq_some_iff]
  constructor
  · intro h
    have h2 := h 2
    have h3 := h 3
    rw [rstart_two, rwindow] at h2
    rw [rstart_three, rwindow] at h3
    exact ⟨by simpa using h2, by simpa using h3⟩
  · rintro ⟨h2, h3⟩ x
    match x with
    | ⟨0, _⟩ =>
      show scatter_S1x1x4096x4096_S20000x4_S20000_n_0123_0123_1.start j (val_main_v29 (F := F) x0) 0 + _ = ((i 0).val : Int)
      rw [rstart_zero, rwindow]
      have : (i 0).val < 1 := (i 0).isLt
      omega
    | ⟨1, _⟩ =>
      show scatter_S1x1x4096x4096_S20000x4_S20000_n_0123_0123_1.start j (val_main_v29 (F := F) x0) 1 + _ = ((i 1).val : Int)
      rw [rstart_one, rwindow]
      have : (i 1).val < 1 := (i 1).isLt
      omega
    | ⟨2, _⟩ =>
      show scatter_S1x1x4096x4096_S20000x4_S20000_n_0123_0123_1.start j (val_main_v29 (F := F) x0) 2 + _ = _
      rw [rstart_two, rwindow]; simpa using h2
    | ⟨3, _⟩ =>
      show scatter_S1x1x4096x4096_S20000x4_S20000_n_0123_0123_1.start j (val_main_v29 (F := F) x0) 3 + _ = _
      rw [rstart_three, rwindow]; simpa using h3

end ReferenceScatter

/-! ## The two scatters agree -/

section Agree
open Cert.ReferenceIdeal.Read Cert.KernelIdeal.Img

variable {F : FTy → Type} [FloatOps F]

/-- A pixel of the image, placed in the image with two leading unit axes. -/
abbrev lift (p : Cert.KernelIdeal.S4096x4096.Idx) : Cert.ReferenceIdeal.S1x1x4096x4096.Idx :=
  ix4 (n0 := 1) (n1 := 1) (n2 := 4096) (n3 := 4096) 0 0 (p 0) (p 1)

theorem lift_injective : Function.Injective lift := by
  intro p q h
  funext a
  match a with
  | ⟨0, _⟩ => exact congrFun h 2
  | ⟨1, _⟩ => exact congrFun h 3

/-- Every index of the image with two leading unit axes is a placed pixel. -/
theorem eq_lift (i : Cert.ReferenceIdeal.S1x1x4096x4096.Idx) :
    i = lift (ix2 (n0 := 4096) (n1 := 4096) (i 2) (i 3)) := by
  funext a
  match a with
  | ⟨0, _⟩ => exact Fin.ext (by have : (i 0).val < 1 := (i 0).isLt; show (i 0).val = 0; omega)
  | ⟨1, _⟩ => exact Fin.ext (by have : (i 1).val < 1 := (i 1).isLt; show (i 1).val = 0; omega)
  | ⟨2, _⟩ => rfl
  | ⟨3, _⟩ => rfl

/-- The reference's row and column indices are the kernel's. -/
theorem v15_eq_rowIdx (x0 : FVec F Cert.KernelIdeal.S20000x2 .f32) : val_main_v15 (F := F) x0 = rowIdx x0 := rfl
theorem v20_eq_colIdx (x0 : FVec F Cert.KernelIdeal.S20000x2 .f32) : val_main_v20 (F := F) x0 = colIdx x0 := rfl

/-- Update `j` lands in the reference's image where it lands in the kernel's, placed; it is dropped by both or by neither. -/
theorem pos_map (x0 : FVec F Cert.KernelIdeal.S20000x2 .f32) (j : Cert.KernelIdeal.S20000.Idx) :
    Cert.ReferenceIdeal.scatter_S1x1x4096x4096_S20000x4_S20000_n_0123_0123_1.resultIdx? j (val_main_v29 (F := F) x0)
      = (Cert.KernelIdeal.scatter_S4096x4096_S20000x2_S20000_n_01_01_1.resultIdx? j (pairs (rowIdx x0) (colIdx x0))).map lift := by
  cases h2 : Cert.KernelIdeal.scatter_S4096x4096_S20000x2_S20000_n_01_01_1.resultIdx? j (pairs (rowIdx x0) (colIdx x0)) with
  | some q =>
    obtain ⟨h0, h1⟩ := (kpos_iff _ _ j q).1 h2
    show _ = some (lift q)
    refine (rpos_iff x0 j (lift q)).2 ⟨?_, ?_⟩
    · rw [v15_eq_rowIdx]; exact h0
    · rw [v20_eq_colIdx]; exact h1
  | none =>
    show _ = none
    cases h4 : Cert.ReferenceIdeal.scatter_S1x1x4096x4096_S20000x4_S20000_n_0123_0123_1.resultIdx? j (val_main_v29 (F := F) x0) with
    | none => rfl
    | some q4 =>
      exfalso
      obtain ⟨h2', h3'⟩ := (rpos_iff x0 j q4).1 h4
      have := (kpos_iff (rowIdx x0) (colIdx x0) j (ix2 (n0 := 4096) (n1 := 4096) (q4 2) (q4 3))).2
        ⟨by rw [← v15_eq_rowIdx]; exact h2', by rw [← v20_eq_colIdx]; exact h3'⟩
      rw [h2] at this
      cases this

/-- The image the reference scatters, read at a placed pixel, is the image the kernel scatters at the pixel, for every
    float instance. -/
theorem scatter_agree_lift (x0 : FVec F Cert.KernelIdeal.S20000x2 .f32) (p : Cert.KernelIdeal.S4096x4096.Idx) :
    val_main_v31 (F := F) x0 (lift p) = scatterImg (F := F) x0 p := by
  unfold val_main_v31 scatterImg scatterAt Host.scatter
  refine foldl_rel (fun (r2 : Cert.KernelIdeal.S4096x4096.Idx → F .f32) (r4 : Cert.ReferenceIdeal.S1x1x4096x4096.Idx → F .f32) =>
    ∀ p, r4 (lift p) = r2 p) _ _ ?_ (List.finRange _) _ _ ?_ p
  · intro r2 r4 n hR p
    dsimp only
    rw [pos_map x0 (Cert.KernelIdeal.S20000.rowMajor.symm n)]
    generalize Cert.KernelIdeal.scatter_S4096x4096_S20000x2_S20000_n_01_01_1.resultIdx? _ _ = o
    cases o with
    | none => exact hR p
    | some q =>
      show (if lift p = lift q then _ else r4 (lift p)) = (if p = q then _ else r2 p)
      by_cases hpq : p = q
      · subst hpq
        rw [if_pos rfl, if_pos rfl]
        rfl
      · rw [if_neg (fun h => hpq (lift_injective h)), if_neg hpq]
        exact hR p
  · intro p
    rfl

/-- The same at every index of the reference's image: its first two coordinates are 0. -/
theorem scatter_agree_gen (x0 : FVec F Cert.KernelIdeal.S20000x2 .f32) (i : Cert.ReferenceIdeal.S1x1x4096x4096.Idx) :
    val_main_v31 (F := F) x0 i = scatterImg (F := F) x0 (ix2 (i 2) (i 3)) :=
  (congrArg (val_main_v31 (F := F) x0) (eq_lift i)).trans (scatter_agree_lift x0 _)

theorem scatter_agree (x0 : FVec Ideal Cert.KernelIdeal.S20000x2 .f32) (i : Cert.ReferenceIdeal.S1x1x4096x4096.Idx) :
    Cert.ReferenceIdeal.Read.val_main_v31 (F := Ideal) x0 i
      = Cert.KernelIdeal.Img.scatterImg (F := Ideal) x0 (ix2 (i 2) (i 3)) :=
  scatter_agree_gen x0 i

end Agree

end Cert.ScatterBridge

end
-- ==== Proof.WindowMax.lean ====
/-
  The 3 × 3 maximum window of the reference program, read at one index.

  The reference's last operation is a window reduction by maximum over an array of shape 1 × 1 × 4096 × 4096: window
  1 × 1 × 3 × 3, stride one, one cell of padding below and above on each of the two image axes, initial value −∞. At an
  output index it is a left fold of max, from the initial value, over the nine window offsets in row-major order; an
  offset (dr, dc) reads the operand at row r + dr − 1 and column c + dc − 1 when that cell exists and the initial value
  when it lies in the padding.

  Three steps. (1) For any window reduction the fold over the positions of the window is the fold over the LIST of
  offsets (`reduceWindow_eq_foldl`), and for this window that list is nine explicit offsets (`W_positions`). (2) One
  term of the fold is the image read at integer coordinates with −∞ outside the grid, `Cert.Pool.at2` (`term_eq`): the
  in-range test of the window and the in-grid test of `at2` are the same four inequalities. (3) −∞ is the identity
  of max and max is associative, so the fold of nine terms is the maximum of the three rows' horizontal maxima,
  `Cert.Pool.pool` (`reduceWindow_max_apply`), and the whole array is `Cert.Pool.G` (`reduceWindow_max_eq_G`).
-/
import proofs.«124252_j31808527794313_2_alg».proof.ReferenceIdeal
import proofs.«124252_j31808527794313_2_alg».proof.Proof.Gen.ReferenceIdeal
import proofs.«124252_j31808527794313_2_alg».proof.Proof.Spec
import Idealize.ShloMosaic.PureOps.Contract
import Idealize.ShloMosaic.Lib.ValueIdx

noncomputable section

namespace Cert.ReferenceIdeal.WindowMax

open Idealize.ShloMosaic Idealize.ShloMosaic.ValueIdx
open Cert.ReferenceIdeal

/-! ## A window reduction as a fold over the list of window offsets -/

/-- The value a window fold meets at the window offset `q` (one natural number per axis), at output index `j`: the
    operand's element when `j · stride + q − lo` is a position of the operand on every axis, the initial value `v` when
    it falls in the padding. -/
def term {α : Type} {s t : Shape} (strides lo : Fin s.rank → Nat) (x : s.Idx → α) (v : α) (e : s.rank = t.rank)
    (j : t.Idx) (q : Fin s.rank → Nat) : α :=
  @dite α (∀ a, lo a ≤ (j (a.cast e)).val * strides a + q a ∧ (j (a.cast e)).val * strides a + q a - lo a < s.size a)
    (Nat.decidableForallFin _)
    (fun hin => x (fun a => ⟨(j (a.cast e)).val * strides a + q a - lo a, (hin a).2⟩)) (fun _ => v)

/-- A window reduction at an output index is the left fold, from the initial value, over the list of the window's
    offsets in row-major order. -/
theorem reduceWindow_eq_foldl {α : Type} {s t u : Shape} (f : α → α → α) (window strides lo hi : Fin s.rank → Nat)
    (x : s.Idx → α) (init : u.Idx → α) (h : s.ReduceWindows window strides lo hi t) (hu : 0 < u.numel) (j : t.Idx) :
    Host.reduceWindow f window strides lo hi x init h hu j
      = (((List.finRange (⟨s.rank, window⟩ : Shape).numel).map
            (fun n => fun a => ((⟨s.rank, window⟩ : Shape).rowMajor.symm n a).val)).foldl
          (fun r q => f r (term strides lo x (init (Shape.Idx.first hu)) h.1.symm j q)) (init (Shape.Idx.first hu))) := by
  rw [List.foldl_map]
  rfl

/-- The nine offsets of a 1 × 1 × 3 × 3 window, in row-major order: the last axis runs fastest. -/
theorem W_positions :
    (List.finRange (⟨4, ![1, 1, 3, 3]⟩ : Shape).numel).map
        (fun n => fun a : Fin 4 => ((⟨4, ![1, 1, 3, 3]⟩ : Shape).rowMajor.symm n a).val)
      = [![0, 0, 0, 0], ![0, 0, 0, 1], ![0, 0, 0, 2], ![0, 0, 1, 0], ![0, 0, 1, 1], ![0, 0, 1, 2],
         ![0, 0, 2, 0], ![0, 0, 2, 1], ![0, 0, 2, 2]] := by
  decide

/-- The reference's window reduction at an output index: the fold of max over the nine offsets. -/
theorem reduceWindow_eq_fold9 (x : FVec Ideal S1x1x4096x4096 .f32) (v : FVec Ideal S_ .f32)
    (h : S1x1x4096x4096.ReduceWindows (![1, 1, 3, 3] : Fin 4 → Nat) ![1, 1, 1, 1] ![0, 0, 1, 1] ![0, 0, 1, 1] S1x1x4096x4096)
    (hu : 0 < S_.numel) (i : S1x1x4096x4096.Idx) :
    Host.reduceWindow (FloatOps.maximumf (F := Ideal) (φ := .f32)) ![1, 1, 3, 3] ![1, 1, 1, 1] ![0, 0, 1, 1] ![0, 0, 1, 1] x v h hu i
      = ([![0, 0, 0, 0], ![0, 0, 0, 1], ![0, 0, 0, 2], ![0, 0, 1, 0], ![0, 0, 1, 1], ![0, 0, 1, 2],
          ![0, 0, 2, 0], ![0, 0, 2, 1], ![0, 0, 2, 2]] : List (Fin 4 → Nat)).foldl
          (fun r q => max r (term (s := S1x1x4096x4096) (t := S1x1x4096x4096) ![1, 1, 1, 1] ![0, 0, 1, 1] x
            (v (Shape.Idx.first hu)) h.1.symm i q)) (v (Shape.Idx.first hu)) := by
  rw [reduceWindow_eq_foldl]
  exact congrArg (fun l => List.foldl _ _ l) W_positions

/-! ## One term of the window is the image at integer coordinates -/

/-- The image inside the array with two leading unit axes. -/
abbrev img (x : FVec Ideal S1x1x4096x4096 .f32) : Cert.Pool.SImg.Idx → EReal := fun j => x (ix4 0 0 (j 0) (j 1))

/-- One term of the 3 × 3 window at output position (r, c): at window offset (dr, dc) it is the image at row
    R = r + dr − 1 and column C = c + dc − 1, read as −∞ outside the grid. On the two unit axes the offset is 0 and the
    position 0; on the two image axes "1 ≤ r + dr and r + dr − 1 < 4096" is "0 ≤ R < 4096". In the padding the window
    holds the initial value, which is −∞. -/
theorem term_eq (x : FVec Ideal S1x1x4096x4096 .f32) (v : EReal) (hv : v = ⊥)
    (e : S1x1x4096x4096.rank = S1x1x4096x4096.rank) (i : S1x1x4096x4096.Idx) (dr dc : Nat) (R C : Int)
    (hR : R = ((i 2).val : Int) + dr - 1) (hC : C = ((i 3).val : Int) + dc - 1) :
    term (s := S1x1x4096x4096) (t := S1x1x4096x4096) ![1, 1, 1, 1] ![0, 0, 1, 1] x v e i ![0, 0, dr, dc]
      = Cert.Pool.at2 (img x) R C := by
  have h0 : (i 0).val = 0 := Nat.lt_one_iff.1 (i 0).isLt
  have h1 : (i 1).val = 0 := Nat.lt_one_iff.1 (i 1).isLt
  have h2 : (i 2).val < 4096 := (i 2).isLt
  have h3 : (i 3).val < 4096 := (i 3).isLt
  unfold term Cert.Pool.at2
  by_cases hin : 0 ≤ R ∧ R < 4096 ∧ 0 ≤ C ∧ C < 4096
  · -- inside the grid: both sides read the array at (0, 0, R, C)
    rw [dif_pos hin, dif_pos (by
      intro a
      fin_cases a <;> simp <;> omega)]
    congr 1
    funext a
    fin_cases a <;> (apply Fin.ext; simp; omega)
  · -- outside the grid: the window's test fails on the row axis or the column axis, and the initial value is −∞
    rw [dif_neg hin, dif_neg (by
      intro hall
      apply hin
      have a2 := hall 2
      have a3 := hall 3
      simp at a2 a3
      omega)]
    exact hv

/-! ## The window reduction is the 3 × 3 maximum filter -/

/-- The 3 × 3 maximum window with initial value −∞ and one cell of padding on each side of the two image axes, read at
    one output index: the specification's 3 × 3 maximum at that row and column. The fold meets the nine offsets row by
    row starting from −∞; −∞ is the identity of max and max is associative, so the fold is the maximum of the three
    rows' horizontal maxima. -/
theorem reduceWindow_max_apply (x : FVec Ideal S1x1x4096x4096 .f32) (v : FVec Ideal S_ .f32) (hv : v ix0 = ⊥)
    (h : S1x1x4096x4096.ReduceWindows (![1, 1, 3, 3] : Fin 4 → Nat) ![1, 1, 1, 1] ![0, 0, 1, 1] ![0, 0, 1, 1] S1x1x4096x4096)
    (hu : 0 < S_.numel) (i : S1x1x4096x4096.Idx) :
    Host.reduceWindow (FloatOps.maximumf (F := Ideal) (φ := .f32)) ![1, 1, 3, 3] ![1, 1, 1, 1] ![0, 0, 1, 1] ![0, 0, 1, 1] x v h hu i
      = Cert.Pool.pool (fun j => x (ix4 0 0 (j 0) (j 1))) ((i 2).val : Int) ((i 3).val : Int) := by
  have hv' : v (Shape.Idx.first hu) = ⊥ := by rw [eq_ix0 (Shape.Idx.first hu)]; exact hv
  rw [reduceWindow_eq_fold9]
  simp only [List.foldl_cons, List.foldl_nil]
  rw [term_eq x _ hv' _ i 0 0 (((i 2).val : Int) - 1) (((i 3).val : Int) - 1) (by omega) (by omega),
    term_eq x _ hv' _ i 0 1 (((i 2).val : Int) - 1) ((i 3).val : Int) (by omega) (by omega),
    term_eq x _ hv' _ i 0 2 (((i 2).val : Int) - 1) (((i 3).val : Int) + 1) (by omega) (by omega),
    term_eq x _ hv' _ i 1 0 ((i 2).val : Int) (((i 3).val : Int) - 1) (by omega) (by omega),
    term_eq x _ hv' _ i 1 1 ((i 2).val : Int) ((i 3).val : Int) (by omega) (by omega),
    term_eq x _ hv' _ i 1 2 ((i 2).val : Int) (((i 3).val : Int) + 1) (by omega) (by omega),
    term_eq x _ hv' _ i 2 0 (((i 2).val : Int) + 1) (((i 3).val : Int) - 1) (by omega) (by omega),
    term_eq x _ hv' _ i 2 1 (((i 2).val : Int) + 1) ((i 3).val : Int) (by omega) (by omega),
    term_eq x _ hv' _ i 2 2 (((i 2).val : Int) + 1) (((i 3).val : Int) + 1) (by omega) (by omega),
    hv', max_bot_left]
  unfold Cert.Pool.pool Cert.Pool.hmax3
  simp only [max_assoc]

/-- The whole array: the window reduction of the array is the specification's filtered image. -/
theorem reduceWindow_max_eq_G (x : FVec Ideal S1x1x4096x4096 .f32) (v : FVec Ideal S_ .f32) (hv : v ix0 = ⊥)
    (h : S1x1x4096x4096.ReduceWindows (![1, 1, 3, 3] : Fin 4 → Nat) ![1, 1, 1, 1] ![0, 0, 1, 1] ![0, 0, 1, 1] S1x1x4096x4096)
    (hu : 0 < S_.numel) :
    Host.reduceWindow (FloatOps.maximumf (F := Ideal) (φ := .f32)) ![1, 1, 3, 3] ![1, 1, 1, 1] ![0, 0, 1, 1] ![0, 0, 1, 1] x v h hu
      = Cert.Pool.G (fun j => x (ix4 0 0 (j 0) (j 1))) :=
  funext fun i => reduceWindow_max_apply x v hv h hu i

/-! ## The same, in the program's own words -/

section Program
variable [Facts₀]
open Facts₀

/-- The initial value the program passes, the scalar constant with the word `0xFF800000` broadcast to a scalar, is −∞:
    the word is the negative infinity of the 32-bit format. -/
theorem init_eq_bot :
    broadcastInDim S_ ![] bcast_S_S_ (constant (F := Ideal) S_ .f32 0xFF800000#32) ix0 = ⊥ := by
  show Ideal.ofBits .f32 0xFF800000#32 = ⊥
  simp [Ideal.ofBits, Ideal.ieee]

/-- The program's window reduction, with the side conditions it cites, at one index. -/
theorem reduceWindow_program_apply (x : FVec Ideal S1x1x4096x4096 .f32) (v : FVec Ideal S_ .f32) (hv : v ix0 = ⊥)
    (i : S1x1x4096x4096.Idx) :
    Host.reduceWindow (FloatOps.maximumf (F := Ideal) (φ := .f32)) ![1, 1, 3, 3] ![1, 1, 1, 1] ![0, 0, 1, 1] ![0, 0, 1, 1] x v
        reduceWindows_S1x1x4096x4096_S1x1x4096x4096_w1s1p0_0_w1s1p0_0_w3s1p1_1_w3s1p1_1 h_S_ i
      = Cert.Pool.pool (fun j => x (ix4 0 0 (j 0) (j 1))) ((i 2).val : Int) ((i 3).val : Int) :=
  reduceWindow_max_apply x v hv _ _ i

/-- The program's window reduction of the array with the program's initial value: the specification's filtered image. -/
theorem reduceWindow_program_eq_G (x : FVec Ideal S1x1x4096x4096 .f32) :
    Host.reduceWindow (FloatOps.maximumf (F := Ideal) (φ := .f32)) ![1, 1, 3, 3] ![1, 1, 1, 1] ![0, 0, 1, 1] ![0, 0, 1, 1] x
        (broadcastInDim S_ ![] bcast_S_S_ (constant (F := Ideal) S_ .f32 0xFF800000#32))
        reduceWindows_S1x1x4096x4096_S1x1x4096x4096_w1s1p0_0_w1s1p0_0_w3s1p1_1_w3s1p1_1 h_S_
      = Cert.Pool.G (fun j => x (ix4 0 0 (j 0) (j 1))) :=
  reduceWindow_max_eq_G x _ init_eq_bot _ _

end Program

end Cert.ReferenceIdeal.WindowMax

end
-- ==== Proof.RefSide.lean ====
/-
  The reference's result is the specification's filtered image of the image the kernel scatters. The reference's last
  operation is the 3 × 3 maximum window, with −∞ outside, of the image it scatters, which is the specification's filter
  of that image with its two leading unit axes dropped; and the image it scatters, read at (0, 0, r, c), is the image
  the kernel scatters read at (r, c).
-/
import proofs.«124252_j31808527794313_2_alg».proof.Proof.ScatterBridge
import proofs.«124252_j31808527794313_2_alg».proof.Proof.WindowMax

noncomputable section

namespace Cert.RefSide

open Idealize.ShloMosaic Idealize.ShloMosaic.ValueIdx

/-- The reference's result, as a function of the boxes, is the filtered image of the kernel's scattered image. -/
theorem ref_eq (x0 : FVec Ideal Cert.KernelIdeal.S20000x2 .f32) :
    Cert.ReferenceIdeal.Read.val_main_v33 (F := Ideal) x0
      = Cert.Pool.G (Cert.KernelIdeal.Img.scatterImg (F := Ideal) x0) := by
  unfold Cert.ReferenceIdeal.Read.val_main_v33
  refine (Cert.ReferenceIdeal.WindowMax.reduceWindow_program_eq_G
    (Cert.ReferenceIdeal.Read.val_main_v31 (F := Ideal) x0)).trans ?_
  refine congrArg Cert.Pool.G (funext fun j => ?_)
  exact Cert.ScatterBridge.scatter_agree_lift (F := Ideal) x0 j

end Cert.RefSide

end
-- ==== Proof.lean ====
/-
  The claim: a fused 3×3 maximum filter, computed tile by tile, against the windowed maximum of the reference.

  Both programs turn 20000 boxes into (row, column) pairs — each coordinate times 4096, truncated, a negative index
  wrapped once — and scatter ones into a zero image of 4096 × 4096 at those pairs; the reference's image carries two
  leading unit axes and its index rows two leading zeros, which changes nothing (Proof/ScatterBridge.lean). The kernel
  then filters the image in 16 tiles of 256 rows: in each tile the maximum of three horizontal neighbours, with −∞ past
  the row's ends, then of three vertical neighbours, the row above the tile's first row and the row below its last row
  taken from two 8-row strips of the same image and replaced by −∞ at the image's border (Proof/Payload.lean,
  Proof/TilePool.lean); the tiles cover the image (Proof/TileCover.lean). The reference takes the maximum over the
  3 × 3 window around each pixel, padded with −∞ (Proof/WindowMax.lean). Both are the filter `Cert.Pool.G` of
  Proof/Spec.lean of one image, as extended reals; the maximum being a lattice operation, no finiteness of the inputs
  is used.
  The three frames: the two kernel programs run as host operations, the region, one host operation
  (Proof/RunI.lean, Proof/RunB.lean: the image's buffer, read by three windows, is dealt among them at the region's
  entry and joined at its exit), the reference as its generated run. The idealization rewrote nothing, so there is
  nothing to preserve.
-/
import proofs.«124252_j31808527794313_2_alg».proof.Defs
import proofs.«124252_j31808527794313_2_alg».proof.Proof.Gen.Kernel
import proofs.«124252_j31808527794313_2_alg».proof.Proof.Gen.KernelIdeal
import proofs.«124252_j31808527794313_2_alg».proof.Proof.Gen.ReferenceIdeal
import proofs.«124252_j31808527794313_2_alg».proof.Proof.Gen.Pre_finite_inputs
import proofs.«124252_j31808527794313_2_alg».proof.Proof.Gen.ReferenceIdeal.Read
import proofs.«124252_j31808527794313_2_alg».proof.Proof.FinalB
import proofs.«124252_j31808527794313_2_alg».proof.Proof.ValueI
import proofs.«124252_j31808527794313_2_alg».proof.Proof.RefSide
import Idealize.ShloMosaic.Adequacy
import Idealize.ShloMosaic.Init

noncomputable section

namespace Cert.Proof

open Idealize.ShloMosaic Idealize.SL.Sem

/-- The word-level kernel program runs and leaves its argument unchanged. -/
theorem frame_k : Cert.frame_Kernel := fun m ρ _ => Cert.Kernel.Hand.frame m ρ

/-- So does the idealized one. -/
theorem frame_ki : Cert.frame_KernelIdeal := fun m ρ _ => Cert.KernelIdeal.Hand.frame m ρ

/-- The reference is host operations only: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the boxes both idealized programs end with the filtered image of the boxes' scatter. -/
theorem algebraic : Cert.algebraic_KernelIdeal_ReferenceIdeal := by
  intro m ρ m' ρ' _ hagree
  refine ⟨fun c => Cert.Pool.G (Cert.KernelIdeal.Img.scatterImg (F := Ideal)
      (m ((c.tc : Thread Cert.KernelIdeal.nD Cert.KernelIdeal.τ).loc Cert.KernelIdeal.main_arg0))),
    Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact (Cert.ReferenceIdeal.Read.val_main_v33_eq _).trans (Cert.RefSide.ref_eq _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
